-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel

variable [Facts]

def fn {F : FTy → Type} [FloatOps F] (main_arg0 : FVec F S100000x128 .f32) (main_arg1 : IVec S2x640000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  main_v3
-- ==== Kernel.lean ====
abbrev S100000x128 : Shape := ⟨2, ![100000, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S5000x128 : Shape := ⟨2, ![5000, 128]⟩
abbrev S100000x512 : Shape := ⟨2, ![100000, 512]⟩

abbrev nBuf : Space → Nat
  | .hbm => 52
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S1x640000, .i32⟩
  | .hbm, ⟨3, _⟩ => ⟨S640000, .i32⟩
  | .hbm, ⟨4, _⟩ => ⟨S1x640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .f32⟩
  | .hbm, ⟨30, _⟩ => ⟨S100000x128, .f32⟩
  | .hbm, ⟨31, _⟩ => ⟨S640000x1, .i32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S100000x128, .f32⟩
  | .hbm, ⟨45, _⟩ => ⟨S640000x1, .i32⟩
  | .hbm, ⟨46, _⟩ => ⟨S100000x128, .f32⟩
  | .hbm, ⟨47, _⟩ => ⟨S100000x128, .f32⟩
  | .hbm, ⟨48, _⟩ => ⟨S100000x512, .f32⟩
  | .hbm, ⟨49, _⟩ => ⟨S_, .f32⟩
  | .hbm, ⟨50, _⟩ => ⟨S100000x512, .f32⟩
  | .hbm, ⟨51, _⟩ => ⟨S100000x512, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S100000x128_S100000x128_S100000x128_S100000x128_S100000x512_d1 : Shape.Concatenates [S100000x128, S100000x128, S100000x128, S100000x128] S100000x512 1
  bcast_S_S100000x512 : S_.BroadcastsInDim S100000x512 (![] : Fin 0 → Fin S100000x512.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x512 : Shape := ⟨2, ![100000, 512]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S1x640000, .i32⟩
  | .hbm, ⟨3, _⟩ => ⟨S640000, .i32⟩
  | .hbm, ⟨4, _⟩ => ⟨S1x640000, .i32⟩
  | .hbm, ⟨5, _⟩ => ⟨S640000, .i32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S_, .f32⟩
  | .hbm, ⟨33, _⟩ => ⟨S100000x128, .f32⟩
  | .hbm, ⟨34, _⟩ => ⟨S640000x1, .i32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S100000x128, .f32⟩
  | .hbm, ⟨51, _⟩ => ⟨S640000x1, .i32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x512, .f32⟩
  | .hbm, ⟨58, _⟩ => ⟨S_, .f32⟩
  | .hbm, ⟨59, _⟩ => ⟨S100000x512, .f32⟩
  | .hbm, ⟨60, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  concatenates_S100000x128_S100000x128_S100000x128_S100000x128_S100000x512_d1 : Shape.Concatenates [S100000x128, S100000x128, S100000x128, S100000x128] S100000x512 1
  bcast_S_S100000x512 : S_.BroadcastsInDim S100000x512 (![] : Fin 0 → Fin S100000x512.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.Words.Layer0.lean ====
/-
  Layer 0 of the graph network's combine step, `x_new = aggr + 1 · x`, as the tiled kernel computes it.

  The layer's three arrays are [100000, 128] matrices cut into 20 row blocks of 5000 rows; grid point `t`
  reads block `t` of the aggregate and block `t` of the features and writes block `t` of the result.
  This module states what one grid point does — the result block is the entrywise sum of the aggregate
  block and the word 1.0 times the feature block — and proves that the kernel body, run on any three
  staging buffers, leaves exactly that in the result's buffer and the two inputs as it found them.
  Everything is stated for an arbitrary float interpretation `F`, so it serves the word-level reading and
  the extended-real reading alike.
-/
import proofs.«168880_j5239860101132_1_alg».proof.Proof.Gen.Kernel.Launch
import proofs.«168880_j5239860101132_1_alg».proof.Proof.Gen.Kernel.Skeleton
import proofs.«168880_j5239860101132_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of every buffer when the layer starts: a parameter, fixed later to what the program has
-- computed by then
variable (V : (c : Dev nD) → (b : Ref sig .tc) → Buf (Elt F) ((c : Thread nD τ).loc b))

/-! ## The row blocks -/

/-- Row block `t` of the layer's array number `w` (0 the aggregate, 1 the features, 2 the result), as the
    layer finds that array. -/
def rows0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregate's staging buffer holds row block `t` of the aggregate when the body runs at point `t`: the
    block is fetched at every point and the body does not write it. -/
theorem aggr_staged0 {c : Dev nD} (dat : Dat τ (Elt F) Unit ℕ (UR sig nD τ) ℕ cfg0 c) (hA : dat.A 0 = V c (Pipeline.arrRef spec0 0))
    (hafter : ∀ t, dat.after 0 t = rows0 V c 0 t) (t : Fin cfg0.N) (d) : dat.before 0 t d = rows0 V c 0 t :=
  (dat.before_in_eq_fetched 0 rfl (fun _ => rfl) (fun _ _ _ => rfl) (fun t => by rw [hafter]; unfold Dat.blockOf rows0; rw [hA]; try rfl) t d).trans
    (by unfold Dat.fetched Dat.blockOf rows0; rw [hA]; try rfl)

/-- The same for the features' staging buffer. -/
theorem feat_staged0 {c : Dev nD} (dat : Dat τ (Elt F) Unit ℕ (UR sig nD τ) ℕ cfg0 c) (hA : dat.A 1 = V c (Pipeline.arrRef spec0 1))
    (hafter : ∀ t, dat.after 1 t = rows0 V c 1 t) (t : Fin cfg0.N) (d) : dat.before 1 t d = rows0 V c 1 t :=
  (dat.before_in_eq_fetched 1 rfl (fun _ => rfl) (fun _ _ _ => rfl) (fun t => by rw [hafter]; unfold Dat.blockOf rows0; rw [hA]; try rfl) t d).trans
    (by unfold Dat.fetched Dat.blockOf rows0; rw [hA]; try rfl)

/-! ## One grid point -/

/-- The whole [5000, 128] staging block: the one rectangle the body loads and stores through. -/
abbrev tile0 : Rect S5000x128 := Rect.unit (s := S5000x128) ![0, 0] S5000x128.size inb_S5000x128_S5000x128_0_0

/-- What one grid point leaves in the result's staging buffer, from the aggregate block `a` and the feature
    block `x`: the body's single store of `a + 1 · x` over the whole block. -/
def sumBlock0 (a : Vec F S5000x128 .f32) (x : Vec F S5000x128 .f32) : Vec F S5000x128 .f32 :=
  View.canon [⟨tile0, k0_pay1 (View.ld a tile0) (View.ld x tile0)⟩]

/-- That one store covers the whole block. -/
theorem tile_covers0 (p0 : Vec F S5000x128 .f32) (y : S5000x128.Idx) :
    ∃ pc ∈ ([⟨tile0, p0⟩] : List (View.Piece (Elt F) S5000x128 .f32)), y ∈ pc.1.set :=
  View.cover_of_tiled [⟨tile0, p0⟩] S5000x128.size (by rfl) y

set_option maxHeartbeats 1000000 in
/-- THE BODY. On three whole staging buffers — the aggregate's holding `a`, the features' holding `x`, the
    result's holding anything — the kernel body runs to the end, leaves `a` and `x` where they were and
    `sumBlock0 a x` in the result's buffer. -/
theorem body_sums0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole)
    (a : Vec F S5000x128 .f32) (x : Vec F S5000x128 .f32) (K : PUnit → sProp 𝕄) :
    iprop(owns (c : Thread nD τ) arg1 fullShare a ∗ owns (c : Thread nD τ) arg2 fullShare x ∗ (∃ d, owns (c : Thread nD τ) arg3 fullShare d)
        ∗ (iprop(owns (c : Thread nD τ) arg1 fullShare a ∗ owns (c : Thread nD τ) arg2 fullShare x ∗ owns (c : Thread nD τ) arg3 fullShare (sumBlock0 a x)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers0 _)

/-! ## The layer's bookkeeping: what every staging buffer holds after every grid point -/

/-- After the body at point `t` the two input buffers hold their row blocks and the result's buffer holds the
    sum block of the two; the arrays are the ones the layer found; nothing is owed between cores. -/
def layer0 (c : Dev nD) : Dat τ (Elt F) Unit ℕ (UR sig nD τ) ℕ cfg0 c where
  A w := V c (Pipeline.arrRef spec0 w)
  after w t := match w with
    | ⟨0, _⟩ => rows0 V c 0 t
    | ⟨1, _⟩ => rows0 V c 1 t
    | ⟨2, _⟩ => sumBlock0 (rows0 V c 0 t) (rows0 V c 1 t)
  Φ _ := Pipeline.ΦA spec0 c
  q _ := fullShare
  owed _ := 0

theorem layer_arrays0 (c : Dev nD) (w : Fin cfg0.W) : (layer0 V c).A w = V c (Pipeline.arrRef spec0 w) := by
  dsimp only [layer0]

theorem after_aggr0 (c : Dev nD) (t : Fin cfg0.N) : (layer0 V c).after 0 t = rows0 V c 0 t := by dsimp only [layer0]
theorem after_feat0 (c : Dev nD) (t : Fin cfg0.N) : (layer0 V c).after 1 t = rows0 V c 1 t := by dsimp only [layer0]
theorem after_sum0 (c : Dev nD) (t : Fin cfg0.N) : (layer0 V c).after 2 t = sumBlock0 (rows0 V c 0 t) (rows0 V c 1 t) := by dsimp only [layer0]

theorem before_aggr0 (c : Dev nD) (t : Fin cfg0.N) (d) : (layer0 V c).before 0 t d = rows0 V c 0 t :=
  aggr_staged0 V (layer0 V c) (layer_arrays0 V c 0) (after_aggr0 V c) t d
theorem before_feat0 (c : Dev nD) (t : Fin cfg0.N) (d) : (layer0 V c).before 1 t d = rows0 V c 1 t :=
  feat_staged0 V (layer0 V c) (layer_arrays0 V c 1) (after_feat0 V c) t d

/-! ## The body at a grid point, in the form the tiling's run asks for -/

/-- What the body is called with at point `t`, -/
def atCall0 (c : Dev nD) (t : Fin cfg0.N) : sProp 𝕄 :=
  iprop((layer0 V c).Φ t.castSucc ∗ (layer0 V c).owesAt () t.castSucc
    ∗ (∃ d, owns (c : Thread nD τ) (st0_0 t) fullShare ((layer0 V c).before 0 t d))
    ∗ (∃ d, owns (c : Thread nD τ) (st0_1 t) fullShare ((layer0 V c).before 1 t d))
    ∗ (∃ d, owns (c : Thread nD τ) (st0_2 t) fullShare ((layer0 V c).before 2 t d)))

/-- and what it returns. -/
def atReturn0 (c : Dev nD) (t : Fin cfg0.N) : sProp 𝕄 :=
  iprop((layer0 V c).Φ t.succ ∗ (layer0 V c).owesAt () t.succ
    ∗ owns (c : Thread nD τ) (st0_0 t) fullShare ((layer0 V c).after 0 t)
    ∗ owns (c : Thread nD τ) (st0_1 t) fullShare ((layer0 V c).after 1 t)
    ∗ owns (c : Thread nD τ) (st0_2 t) fullShare ((layer0 V c).after 2 t))

/-- At any grid point the input buffers hold their row blocks, so `body_sums0` applies; what the body does
    not touch passes through. -/
theorem point_runs0 (c : Dev nD) (t : Fin cfg0.N) :
    atCall0 V c t ⊢ wp frame (wpE (defs₀ (F := F)) Variants.none c none) Set.univ (bodyAt0 t) (fun _ => atReturn0 V c t) := by
  unfold atCall0 atReturn0 bodyAt0
  simp only [before_aggr0, before_feat0]
  rw [show (layer0 V c).Φ t.succ = (layer0 V c).Φ t.castSucc from rfl,
    show (layer0 V c).owesAt () t.succ = (layer0 V c).owesAt () t.castSucc from rfl,
    after_aggr0, after_feat0, after_sum0]
  iintro ⟨HΦ, Ho, ⟨%d0, H0⟩, ⟨%d1, H1⟩, ⟨%d2, H2⟩⟩
  iapply (body_sums0 c Set.univ (grid0.coords t) _ _ _ _ _ _ (rows0 V c 0 t) (rows0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer runs. -/
theorem every_point0 (c : Dev nD) : BodyObligation (layer0 (F := F) V c) (defs₀ (F := F)) Variants.none () Set.univ := fun t => by
  rw [bigSep_W0, bigSep_W0]
  exact point_runs0 V c t

end Cert.Kernel.Combine

end
-- ==== Proof.Words.Layer1.lean ====
/-
  Layer 1 of the graph network's combine step, `x_new = aggr + 1 · x`, as the tiled kernel computes it.

  The layer's three arrays are [100000, 128] matrices cut into 20 row blocks of 5000 rows; grid point `t`
  reads block `t` of the aggregate and block `t` of the features and writes block `t` of the result.
  This module states what one grid point does — the result block is the entrywise sum of the aggregate
  block and the word 1.0 times the feature block — and proves that the kernel body, run on any three
  staging buffers, leaves exactly that in the result's buffer and the two inputs as it found them.
  Everything is stated for an arbitrary float interpretation `F`, so it serves the word-level reading and
  the extended-real reading alike.
-/
import proofs.«168880_j5239860101132_1_alg».proof.Proof.Gen.Kernel.Launch
import proofs.«168880_j5239860101132_1_alg».proof.Proof.Gen.Kernel.Skeleton
import proofs.«168880_j5239860101132_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of every buffer when the layer starts: a parameter, fixed later to what the program has
-- computed by then
variable (V : (c : Dev nD) → (b : Ref sig .tc) → Buf (Elt F) ((c : Thread nD τ).loc b))

/-! ## The row blocks -/

/-- Row block `t` of the layer's array number `w` (0 the aggregate, 1 the features, 2 the result), as the
    layer finds that array. -/
def rows1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's staging buffer holds row block `t` of the aggregate when the body runs at point `t`: the
    block is fetched at every point and the body does not write it. -/
theorem aggr_staged1 {c : Dev nD} (dat : Dat τ (Elt F) Unit ℕ (UR sig nD τ) ℕ cfg1 c) (hA : dat.A 0 = V c (Pipeline.arrRef spec1 0))
    (hafter : ∀ t, dat.after 0 t = rows1 V c 0 t) (t : Fin cfg1.N) (d) : dat.before 0 t d = rows1 V c 0 t :=
  (dat.before_in_eq_fetched 0 rfl (fun _ => rfl) (fun _ _ _ => rfl) (fun t => by rw [hafter]; unfold Dat.blockOf rows1; rw [hA]; try rfl) t d).trans
    (by unfold Dat.fetched Dat.blockOf rows1; rw [hA]; try rfl)

/-- The same for the features' staging buffer. -/
theorem feat_staged1 {c : Dev nD} (dat : Dat τ (Elt F) Unit ℕ (UR sig nD τ) ℕ cfg1 c) (hA : dat.A 1 = V c (Pipeline.arrRef spec1 1))
    (hafter : ∀ t, dat.after 1 t = rows1 V c 1 t) (t : Fin cfg1.N) (d) : dat.before 1 t d = rows1 V c 1 t :=
  (dat.before_in_eq_fetched 1 rfl (fun _ => rfl) (fun _ _ _ => rfl) (fun t => by rw [hafter]; unfold Dat.blockOf rows1; rw [hA]; try rfl) t d).trans
    (by unfold Dat.fetched Dat.blockOf rows1; rw [hA]; try rfl)

/-! ## One grid point -/

/-- The whole [5000, 128] staging block: the one rectangle the body loads and stores through. -/
abbrev tile1 : Rect S5000x128 := Rect.unit (s := S5000x128) ![0, 0] S5000x128.size inb_S5000x128_S5000x128_0_0

/-- What one grid point leaves in the result's staging buffer, from the aggregate block `a` and the feature
    block `x`: the body's single store of `a + 1 · x` over the whole block. -/
def sumBlock1 (a : Vec F S5000x128 .f32) (x : Vec F S5000x128 .f32) : Vec F S5000x128 .f32 :=
  View.canon [⟨tile1, k1_pay1 (View.ld a tile1) (View.ld x tile1)⟩]

/-- That one store covers the whole block. -/
theorem tile_covers1 (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

set_option maxHeartbeats 1000000 in
/-- THE BODY. On three whole staging buffers — the aggregate's holding `a`, the features' holding `x`, the
    result's holding anything — the kernel body runs to the end, leaves `a` and `x` where they were and
    `sumBlock1 a x` in the result's buffer. -/
theorem body_sums1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole)
    (a : Vec F S5000x128 .f32) (x : Vec F S5000x128 .f32) (K : PUnit → sProp 𝕄) :
    iprop(owns (c : Thread nD τ) arg1 fullShare a ∗ owns (c : Thread nD τ) arg2 fullShare x ∗ (∃ d, owns (c : Thread nD τ) arg3 fullShare d)
        ∗ (iprop(owns (c : Thread nD τ) arg1 fullShare a ∗ owns (c : Thread nD τ) arg2 fullShare x ∗ owns (c : Thread nD τ) arg3 fullShare (sumBlock1 a x)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers1 _)

/-! ## The layer's bookkeeping: what every staging buffer holds after every grid point -/

/-- After the body at point `t` the two input buffers hold their row blocks and the result's buffer holds the
    sum block of the two; the arrays are the ones the layer found; nothing is owed between cores. -/
def layer1 (c : Dev nD) : Dat τ (Elt F) Unit ℕ (UR sig nD τ) ℕ cfg1 c where
  A w := V c (Pipeline.arrRef spec1 w)
  after w t := match w with
    | ⟨0, _⟩ => rows1 V c 0 t
    | ⟨1, _⟩ => rows1 V c 1 t
    | ⟨2, _⟩ => sumBlock1 (rows1 V c 0 t) (rows1 V c 1 t)
  Φ _ := Pipeline.ΦA spec1 c
  q _ := fullShare
  owed _ := 0

theorem layer_arrays1 (c : Dev nD) (w : Fin cfg1.W) : (layer1 V c).A w = V c (Pipeline.arrRef spec1 w) := by
  dsimp only [layer1]

theorem after_aggr1 (c : Dev nD) (t : Fin cfg1.N) : (layer1 V c).after 0 t = rows1 V c 0 t := by dsimp only [layer1]
theorem after_feat1 (c : Dev nD) (t : Fin cfg1.N) : (layer1 V c).after 1 t = rows1 V c 1 t := by dsimp only [layer1]
theorem after_sum1 (c : Dev nD) (t : Fin cfg1.N) : (layer1 V c).after 2 t = sumBlock1 (rows1 V c 0 t) (rows1 V c 1 t) := by dsimp only [layer1]

theorem before_aggr1 (c : Dev nD) (t : Fin cfg1.N) (d) : (layer1 V c).before 0 t d = rows1 V c 0 t :=
  aggr_staged1 V (layer1 V c) (layer_arrays1 V c 0) (after_aggr1 V c) t d
theorem before_feat1 (c : Dev nD) (t : Fin cfg1.N) (d) : (layer1 V c).before 1 t d = rows1 V c 1 t :=
  feat_staged1 V (layer1 V c) (layer_arrays1 V c 1) (after_feat1 V c) t d

/-! ## The body at a grid point, in the form the tiling's run asks for -/

/-- What the body is called with at point `t`, -/
def atCall1 (c : Dev nD) (t : Fin cfg1.N) : sProp 𝕄 :=
  iprop((layer1 V c).Φ t.castSucc ∗ (layer1 V c).owesAt () t.castSucc
    ∗ (∃ d, owns (c : Thread nD τ) (st1_0 t) fullShare ((layer1 V c).before 0 t d))
    ∗ (∃ d, owns (c : Thread nD τ) (st1_1 t) fullShare ((layer1 V c).before 1 t d))
    ∗ (∃ d, owns (c : Thread nD τ) (st1_2 t) fullShare ((layer1 V c).before 2 t d)))

/-- and what it returns. -/
def atReturn1 (c : Dev nD) (t : Fin cfg1.N) : sProp 𝕄 :=
  iprop((layer1 V c).Φ t.succ ∗ (layer1 V c).owesAt () t.succ
    ∗ owns (c : Thread nD τ) (st1_0 t) fullShare ((layer1 V c).after 0 t)
    ∗ owns (c : Thread nD τ) (st1_1 t) fullShare ((layer1 V c).after 1 t)
    ∗ owns (c : Thread nD τ) (st1_2 t) fullShare ((layer1 V c).after 2 t))

/-- At any grid point the input buffers hold their row blocks, so `body_sums1` applies; what the body does
    not touch passes through. -/
theorem point_runs1 (c : Dev nD) (t : Fin cfg1.N) :
    atCall1 V c t ⊢ wp frame (wpE (defs₀ (F := F)) Variants.none c none) Set.univ (bodyAt1 t) (fun _ => atReturn1 V c t) := by
  unfold atCall1 atReturn1 bodyAt1
  simp only [before_aggr1, before_feat1]
  rw [show (layer1 V c).Φ t.succ = (layer1 V c).Φ t.castSucc from rfl,
    show (layer1 V c).owesAt () t.succ = (layer1 V c).owesAt () t.castSucc from rfl,
    after_aggr1, after_feat1, after_sum1]
  iintro ⟨HΦ, Ho, ⟨%d0, H0⟩, ⟨%d1, H1⟩, ⟨%d2, H2⟩⟩
  iapply (body_sums1 c Set.univ (grid1.coords t) _ _ _ _ _ _ (rows1 V c 0 t) (rows1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer runs. -/
theorem every_point1 (c : Dev nD) : BodyObligation (layer1 (F := F) V c) (defs₀ (F := F)) Variants.none () Set.univ := fun t => by
  rw [bigSep_W1, bigSep_W1]
  exact point_runs1 V c t

end Cert.Kernel.Combine

end
-- ==== Proof.Words.Layer2.lean ====
/-
  Layer 2 of the graph network's combine step, `x_new = aggr + 1 · x`, as the tiled kernel computes it.

  The layer's three arrays are [100000, 128] matrices cut into 20 row blocks of 5000 rows; grid point `t`
  reads block `t` of the aggregate and block `t` of the features and writes block `t` of the result.
  This module states what one grid point does — the result block is the entrywise sum of the aggregate
  block and the word 1.0 times the feature block — and proves that the kernel body, run on any three
  staging buffers, leaves exactly that in the result's buffer and the two inputs as it found them.
  Everything is stated for an arbitrary float interpretation `F`, so it serves the word-level reading and
  the extended-real reading alike.
-/
import proofs.«168880_j5239860101132_1_alg».proof.Proof.Gen.Kernel.Launch
import proofs.«168880_j5239860101132_1_alg».proof.Proof.Gen.Kernel.Skeleton
import proofs.«168880_j5239860101132_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of every buffer when the layer starts: a parameter, fixed later to what the program has
-- computed by then
variable (V : (c : Dev nD) → (b : Ref sig .tc) → Buf (Elt F) ((c : Thread nD τ).loc b))

/-! ## The row blocks -/

/-- Row block `t` of the layer's array number `w` (0 the aggregate, 1 the features, 2 the result), as the
    layer finds that array. -/
def rows2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregate's staging buffer holds row block `t` of the aggregate when the body runs at point `t`: the
    block is fetched at every point and the body does not write it. -/
theorem aggr_staged2 {c : Dev nD} (dat : Dat τ (Elt F) Unit ℕ (UR sig nD τ) ℕ cfg2 c) (hA : dat.A 0 = V c (Pipeline.arrRef spec2 0))
    (hafter : ∀ t, dat.after 0 t = rows2 V c 0 t) (t : Fin cfg2.N) (d) : dat.before 0 t d = rows2 V c 0 t :=
  (dat.before_in_eq_fetched 0 rfl (fun _ => rfl) (fun _ _ _ => rfl) (fun t => by rw [hafter]; unfold Dat.blockOf rows2; rw [hA]; try rfl) t d).trans
    (by unfold Dat.fetched Dat.blockOf rows2; rw [hA]; try rfl)

/-- The same for the features' staging buffer. -/
theorem feat_staged2 {c : Dev nD} (dat : Dat τ (Elt F) Unit ℕ (UR sig nD τ) ℕ cfg2 c) (hA : dat.A 1 = V c (Pipeline.arrRef spec2 1))
    (hafter : ∀ t, dat.after 1 t = rows2 V c 1 t) (t : Fin cfg2.N) (d) : dat.before 1 t d = rows2 V c 1 t :=
  (dat.before_in_eq_fetched 1 rfl (fun _ => rfl) (fun _ _ _ => rfl) (fun t => by rw [hafter]; unfold Dat.blockOf rows2; rw [hA]; try rfl) t d).trans
    (by unfold Dat.fetched Dat.blockOf rows2; rw [hA]; try rfl)

/-! ## One grid point -/

/-- The whole [5000, 128] staging block: the one rectangle the body loads and stores through. -/
abbrev tile2 : Rect S5000x128 := Rect.unit (s := S5000x128) ![0, 0] S5000x128.size inb_S5000x128_S5000x128_0_0

/-- What one grid point leaves in the result's staging buffer, from the aggregate block `a` and the feature
    block `x`: the body's single store of `a + 1 · x` over the whole block. -/
def sumBlock2 (a : Vec F S5000x128 .f32) (x : Vec F S5000x128 .f32) : Vec F S5000x128 .f32 :=
  View.canon [⟨tile2, k2_pay1 (View.ld a tile2) (View.ld x tile2)⟩]

/-- That one store covers the whole block. -/
theorem tile_covers2 (p0 : Vec F S5000x128 .f32) (y : S5000x128.Idx) :
    ∃ pc ∈ ([⟨tile2, p0⟩] : List (View.Piece (Elt F) S5000x128 .f32)), y ∈ pc.1.set :=
  View.cover_of_tiled [⟨tile2, p0⟩] S5000x128.size (by rfl) y

set_option maxHeartbeats 1000000 in
/-- THE BODY. On three whole staging buffers — the aggregate's holding `a`, the features' holding `x`, the
    result's holding anything — the kernel body runs to the end, leaves `a` and `x` where they were and
    `sumBlock2 a x` in the result's buffer. -/
theorem body_sums2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole)
    (a : Vec F S5000x128 .f32) (x : Vec F S5000x128 .f32) (K : PUnit → sProp 𝕄) :
    iprop(owns (c : Thread nD τ) arg1 fullShare a ∗ owns (c : Thread nD τ) arg2 fullShare x ∗ (∃ d, owns (c : Thread nD τ) arg3 fullShare d)
        ∗ (iprop(owns (c : Thread nD τ) arg1 fullShare a ∗ owns (c : Thread nD τ) arg2 fullShare x ∗ owns (c : Thread nD τ) arg3 fullShare (sumBlock2 a x)) -∗ K ⟨⟩))
      ⊢ wp frame (wpE (defs₀ (F := F)) Variants.none c none) E (cc2__combine_kernel i arg1 harg1 arg2 harg2 arg3 harg3) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers2 _)

/-! ## The layer's bookkeeping: what every staging buffer holds after every grid point -/

/-- After the body at point `t` the two input buffers hold their row blocks and the result's buffer holds the
    sum block of the two; the arrays are the ones the layer found; nothing is owed between cores. -/
def layer2 (c : Dev nD) : Dat τ (Elt F) Unit ℕ (UR sig nD τ) ℕ cfg2 c where
  A w := V c (Pipeline.arrRef spec2 w)
  after w t := match w with
    | ⟨0, _⟩ => rows2 V c 0 t
    | ⟨1, _⟩ => rows2 V c 1 t
    | ⟨2, _⟩ => sumBlock2 (rows2 V c 0 t) (rows2 V c 1 t)
  Φ _ := Pipeline.ΦA spec2 c
  q _ := fullShare
  owed _ := 0

theorem layer_arrays2 (c : Dev nD) (w : Fin cfg2.W) : (layer2 V c).A w = V c (Pipeline.arrRef spec2 w) := by
  dsimp only [layer2]

theorem after_aggr2 (c : Dev nD) (t : Fin cfg2.N) : (layer2 V c).after 0 t = rows2 V c 0 t := by dsimp only [layer2]
theorem after_feat2 (c : Dev nD) (t : Fin cfg2.N) : (layer2 V c).after 1 t = rows2 V c 1 t := by dsimp only [layer2]
theorem after_sum2 (c : Dev nD) (t : Fin cfg2.N) : (layer2 V c).after 2 t = sumBlock2 (rows2 V c 0 t) (rows2 V c 1 t) := by dsimp only [layer2]

theorem before_aggr2 (c : Dev nD) (t : Fin cfg2.N) (d) : (layer2 V c).before 0 t d = rows2 V c 0 t :=
  aggr_staged2 V (layer2 V c) (layer_arrays2 V c 0) (after_aggr2 V c) t d
theorem before_feat2 (c : Dev nD) (t : Fin cfg2.N) (d) : (layer2 V c).before 1 t d = rows2 V c 1 t :=
  feat_staged2 V (layer2 V c) (layer_arrays2 V c 1) (after_feat2 V c) t d

/-! ## The body at a grid point, in the form the tiling's run asks for -/

/-- What the body is called with at point `t`, -/
def atCall2 (c : Dev nD) (t : Fin cfg2.N) : sProp 𝕄 :=
  iprop((layer2 V c).Φ t.castSucc ∗ (layer2 V c).owesAt () t.castSucc
    ∗ (∃ d, owns (c : Thread nD τ) (st2_0 t) fullShare ((layer2 V c).before 0 t d))
    ∗ (∃ d, owns (c : Thread nD τ) (st2_1 t) fullShare ((layer2 V c).before 1 t d))
    ∗ (∃ d, owns (c : Thread nD τ) (st2_2 t) fullShare ((layer2 V c).before 2 t d)))

/-- and what it returns. -/
def atReturn2 (c : Dev nD) (t : Fin cfg2.N) : sProp 𝕄 :=
  iprop((layer2 V c).Φ t.succ ∗ (layer2 V c).owesAt () t.succ
    ∗ owns (c : Thread nD τ) (st2_0 t) fullShare ((layer2 V c).after 0 t)
    ∗ owns (c : Thread nD τ) (st2_1 t) fullShare ((layer2 V c).after 1 t)
    ∗ owns (c : Thread nD τ) (st2_2 t) fullShare ((layer2 V c).after 2 t))

/-- At any grid point the input buffers hold their row blocks, so `body_sums2` applies; what the body does
    not touch passes through. -/
theorem point_runs2 (c : Dev nD) (t : Fin cfg2.N) :
    atCall2 V c t ⊢ wp frame (wpE (defs₀ (F := F)) Variants.none c none) Set.univ (bodyAt2 t) (fun _ => atReturn2 V c t) := by
  unfold atCall2 atReturn2 bodyAt2
  simp only [before_aggr2, before_feat2]
  rw [show (layer2 V c).Φ t.succ = (layer2 V c).Φ t.castSucc from rfl,
    show (layer2 V c).owesAt () t.succ = (layer2 V c).owesAt () t.castSucc from rfl,
    after_aggr2, after_feat2, after_sum2]
  iintro ⟨HΦ, Ho, ⟨%d0, H0⟩, ⟨%d1, H1⟩, ⟨%d2, H2⟩⟩
  iapply (body_sums2 c Set.univ (grid2.coords t) _ _ _ _ _ _ (rows2 V c 0 t) (rows2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer runs. -/
theorem every_point2 (c : Dev nD) : BodyObligation (layer2 (F := F) V c) (defs₀ (F := F)) Variants.none () Set.univ := fun t => by
  rw [bigSep_W2, bigSep_W2]
  exact point_runs2 V c t

end Cert.Kernel.Combine

end
-- ==== Proof.Words.Whole.lean ====
/-
  The whole program, from launch to return: four stretches of host operations (the gather of source rows and
  the scatter-add into target rows before each layer; the concatenation and the final scaling after the last)
  with the three tiled combine layers between them.

  What every buffer holds at each of the eight boundaries is written down as a fold from the launch memory:
  a host stretch applies its operations; a layer replaces its result array by what its grid points wrote back
  and leaves every other buffer alone. Every weakly fair execution terminates, and the final memory holds,
  at every buffer, the fold's last stage. From that one statement follow both "the argument arrays end as they
  were launched" and, elsewhere, the value of the result. Stated for any float interpretation `F`.
-/
import proofs.«168880_j5239860101132_1_alg».proof.Proof.Words.Layer0
import proofs.«168880_j5239860101132_1_alg».proof.Proof.Words.Layer1
import proofs.«168880_j5239860101132_1_alg».proof.Proof.Words.Layer2
import proofs.«168880_j5239860101132_1_alg».proof.Proof.Gen.Kernel.Regions

set_option maxRecDepth 16384

noncomputable section

namespace Cert.Kernel.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the eight boundaries -/

/-- At launch. -/
abbrev B0 : Dev nD → Valuation τ sig (Elt F) := fun c b => (s₀ m ρ).mem ((c : Dev nD), b)
/-- After the first host stretch: the first aggregate is computed. -/
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b
/-- After layer 0: its result array holds what its grid points wrote back. -/
def B2 (c : Dev nD) : Valuation τ sig (Elt F) :=
  Pipeline.withArrays spec0 c (B1 m ρ c) fun w => (layer0 (R1 m ρ) c).arrAt w cfg0.N
theorem B2_arr (c : Dev nD) (w : Fin cfg0.W) :
    B2 m ρ c (Proc.devRef .tc (Pipeline.arrRef spec0 w)) = (layer0 (R1 m ρ) c).arrAt w cfg0.N := by
  unfold B2; exact Pipeline.withArrays_arr spec0 launch0.win.arr_inj c _ _ w
theorem B2_keep (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev R2 : (c : Dev nD) → (b : Ref sig .tc) → Buf (Elt F) ((c : Thread nD τ).loc b) := fun c b => B2 m ρ c b
theorem left0 (c : Dev nD) (w : Fin cfg0.W) : (layer0 (R1 m ρ) c).arrAt w cfg0.N = R2 m ρ c (Pipeline.arrRef spec0 w) :=
  (B2_arr m ρ c w).symm
theorem rest0 (c : Dev nD) : ∀ b, b ∉ Finset.univ.image (Pipeline.arrRef spec0) → R2 m ρ c b = R1 m ρ c b :=
  fun b hb => B2_keep m ρ c b fun w e => hb (Finset.mem_image.mpr ⟨w, Finset.mem_univ _, e⟩)

/-- After the second host stretch: the second aggregate. -/
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b
/-- After layer 1. -/
def B4 (c : Dev nD) : Valuation τ sig (Elt F) :=
  Pipeline.withArrays spec1 c (B3 m ρ c) fun w => (layer1 (R3 m ρ) c).arrAt w cfg1.N
theorem B4_arr (c : Dev nD) (w : Fin cfg1.W) :
    B4 m ρ c (Proc.devRef .tc (Pipeline.arrRef spec1 w)) = (layer1 (R3 m ρ) c).arrAt w cfg1.N := by
  unfold B4; exact Pipeline.withArrays_arr spec1 launch1.win.arr_inj c _ _ w
theorem B4_keep (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev R4 : (c : Dev nD) → (b : Ref sig .tc) → Buf (Elt F) ((c : Thread nD τ).loc b) := fun c b => B4 m ρ c b
theorem left1 (c : Dev nD) (w : Fin cfg1.W) : (layer1 (R3 m ρ) c).arrAt w cfg1.N = R4 m ρ c (Pipeline.arrRef spec1 w) :=
  (B4_arr m ρ c w).symm
theorem rest1 (c : Dev nD) : ∀ b, b ∉ Finset.univ.image (Pipeline.arrRef spec1) → R4 m ρ c b = R3 m ρ c b :=
  fun b hb => B4_keep m ρ c b fun w e => hb (Finset.mem_image.mpr ⟨w, Finset.mem_univ _, e⟩)

/-- After the third host stretch: the third aggregate. -/
abbrev B5 : Dev nD → Valuation τ sig (Elt F) := fun c => StableHlo.after hostOps2 (B4 m ρ c)
abbrev R5 : (c : Dev nD) → (b : Ref sig .tc) → Buf (Elt F) ((c : Thread nD τ).loc b) := fun c b => B5 m ρ c b
/-- After layer 2. -/
def B6 (c : Dev nD) : Valuation τ sig (Elt F) :=
  Pipeline.withArrays spec2 c (B5 m ρ c) fun w => (layer2 (R5 m ρ) c).arrAt w cfg2.N
theorem B6_arr (c : Dev nD) (w : Fin cfg2.W) :
    B6 m ρ c (Proc.devRef .tc (Pipeline.arrRef spec2 w)) = (layer2 (R5 m ρ) c).arrAt w cfg2.N := by
  unfold B6; exact Pipeline.withArrays_arr spec2 launch2.win.arr_inj c _ _ w
theorem B6_keep (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev R6 : (c : Dev nD) → (b : Ref sig .tc) → Buf (Elt F) ((c : Thread nD τ).loc b) := fun c b => B6 m ρ c b
theorem left2 (c : Dev nD) (w : Fin cfg2.W) : (layer2 (R5 m ρ) c).arrAt w cfg2.N = R6 m ρ c (Pipeline.arrRef spec2 w) :=
  (B6_arr m ρ c w).symm
theorem rest2 (c : Dev nD) : ∀ b, b ∉ Finset.univ.image (Pipeline.arrRef spec2) → R6 m ρ c b = R5 m ρ c b :=
  fun b hb => B6_keep m ρ c b fun w e => hb (Finset.mem_image.mpr ⟨w, Finset.mem_univ _, e⟩)

/-- At return: the four feature blocks concatenated and scaled. -/
abbrev B7 : Dev nD → Valuation τ sig (Elt F) := fun c => StableHlo.after hostOps3 (B6 m ρ c)

/-! ## A buffer that a stretch does not write, or that is none of a layer's arrays, is carried across it -/

theorem B1_keep (c : Dev nD) (r : Ref sig .tc) (h : r ∉ hostOps0_W) : B1 m ρ c r = B0 m ρ c r :=
  StableHlo.after_of_writes_sub hostOps0 _ hostOps0_writes h
theorem B3_keep (c : Dev nD) (r : Ref sig .tc) (h : r ∉ hostOps1_W) : B3 m ρ c r = B2 m ρ c r :=
  StableHlo.after_of_writes_sub hostOps1 _ hostOps1_writes h
theorem B5_keep (c : Dev nD) (r : Ref sig .tc) (h : r ∉ hostOps2_W) : B5 m ρ c r = B4 m ρ c r :=
  StableHlo.after_of_writes_sub hostOps2 _ hostOps2_writes h
theorem B7_keep (c : Dev nD) (r : Ref sig .tc) (h : r ∉ hostOps3_W) : B7 m ρ c r = B6 m ρ c r :=
  StableHlo.after_of_writes_sub hostOps3 _ hostOps3_writes h

/-- Layer 0 reads the features (the first argument) through an input window: the array is as the layer found it. -/
theorem B2_features (c : Dev nD) : B2 m ρ c (Proc.devRef .tc main_arg0) = B1 m ρ c (Proc.devRef .tc main_arg0) :=
  (B2_arr m ρ c 1).trans (((layer0 (R1 m ρ) c).arrAt_in 1 rfl _).trans (layer_arrays0 (R1 m ρ) c 1))

/-- The feature matrix reaches the end as launched. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := B7_keep m ρ c main_arg0 (by decide)
    _ = B5 m ρ c (Proc.devRef .tc main_arg0) := B6_keep m ρ c main_arg0 (by decide)
    _ = B4 m ρ c (Proc.devRef .tc main_arg0) := B5_keep m ρ c main_arg0 (by decide)
    _ = B3 m ρ c (Proc.devRef .tc main_arg0) := B4_keep m ρ c main_arg0 (by decide)
    _ = B2 m ρ c (Proc.devRef .tc main_arg0) := B3_keep m ρ c main_arg0 (by decide)
    _ = B1 m ρ c (Proc.devRef .tc main_arg0) := B2_features m ρ c
    _ = B0 m ρ c (Proc.devRef .tc main_arg0) := B1_keep m ρ c main_arg0 (by decide)
    _ = m ((c : Thread nD τ).loc main_arg0) := rfl

/-- The edge list reaches the end as launched. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := B7_keep m ρ c main_arg1 (by decide)
    _ = B5 m ρ c (Proc.devRef .tc main_arg1) := B6_keep m ρ c main_arg1 (by decide)
    _ = B4 m ρ c (Proc.devRef .tc main_arg1) := B5_keep m ρ c main_arg1 (by decide)
    _ = B3 m ρ c (Proc.devRef .tc main_arg1) := B4_keep m ρ c main_arg1 (by decide)
    _ = B2 m ρ c (Proc.devRef .tc main_arg1) := B3_keep m ρ c main_arg1 (by decide)
    _ = B1 m ρ c (Proc.devRef .tc main_arg1) := B2_keep m ρ c main_arg1 (by decide)
    _ = B0 m ρ c (Proc.devRef .tc main_arg1) := B1_keep m ρ c main_arg1 (by decide)
    _ = m ((c : Thread nD τ).loc main_arg1) := rfl

/-! ## The run's data -/

/-- Each layer's bookkeeping, taken at the buffers that layer finds. -/
def layers : (p : Fin 3) → (c : Dev nD) → Dat τ (Elt F) Unit ℕ (UR sig nD τ) ℕ (Pipeline.pin (pcfgs (F := F)) adm p) c
  | ⟨0, _⟩ => fun c => layer0 (R1 m ρ) c
  | ⟨1, _⟩ => fun c => layer1 (R3 m ρ) c
  | ⟨2, _⟩ => fun c => layer2 (R5 m ρ) c
abbrev noVariants : Variants := Variants.none
abbrev noLevels : GSem nD τ sig → Finset Unit := fun _ => ∅
abbrev levelZero : GSem nD τ sig → Unit → ℕ := fun _ _ => 0
/-- What a core carries beside its buffers between items: its generator register, and owing nothing. -/
abbrev beside (c : Dev nD) : sProp 𝕄 := iprop((∃ r, prngReg c r) ∗ ∃ W, owes (c : Thread nD τ) (0 : CellTallies nD τ sig Unit) W)

/-- A stretch of host operations as an item of the run. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state: every buffer at the last boundary's contents, the generator register at some state. -/
abbrev atEnd (c : Dev nD) : sProp 𝕄 := iprop(StableHlo.held (c : Thread nD τ) (Pipeline.ucRefs τ sig) (B7 m ρ c) ∗ ∃ r, prngReg c r)

/-! ## The layers as items of the run -/

set_option backward.isDefEq.respectTransparency.types false in
/-- LAYER 0 as an item: entered with every buffer at `B1`, left with every buffer at `B2`. Its three arrays are
    taken out of the buffers on entry and put back, at what the grid points left, on exit. -/
def item0 : Pipeline.RegionSeg (pcfgs (F := F)) adm (layers m ρ) () defs₀ noVariants noLevels levelZero 0 where
  win := launch0.win.to₀
  block_pos := launch0.block_pos
  stage_whole := launch0.stage_whole
  K := PEmpty
  osem k := k.elim
  ho := Pipeline.OwnSemFacts.none _
  hbody c := (every_point0 (R1 m ρ) c).loose
  hwaits := Pipeline.hwaits_of_owed_zero _ _ _ _ noLevels levelZero 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) adm (layers m ρ) launch0.win launch0.arr_whole c
      ((layers m ρ 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (layers m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (layers m ρ) ((layers m ρ 0 c).share_full fun _ => rfl)
      (R1 m ρ c) (R2 m ρ c) ((layers m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1 as an item: entered with every buffer at `B3`, left with every buffer at `B4`. -/
def item1 : Pipeline.RegionSeg (pcfgs (F := F)) adm (layers m ρ) () defs₀ noVariants noLevels levelZero 1 where
  win := launch1.win.to₀
  block_pos := launch1.block_pos
  stage_whole := launch1.stage_whole
  K := PEmpty
  osem k := k.elim
  ho := Pipeline.OwnSemFacts.none _
  hbody c := (every_point1 (R3 m ρ) c).loose
  hwaits := Pipeline.hwaits_of_owed_zero _ _ _ _ noLevels levelZero 1 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit := Pipeline.arrays_of_unscopedBufs (p := 1) (pcfgs (F := F)) adm (layers m ρ) launch1.win launch1.arr_whole c
      ((layers m ρ 1 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (layers m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (layers m ρ) ((layers m ρ 1 c).share_full fun _ => rfl)
      (R3 m ρ c) (R4 m ρ c) ((layers m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2 as an item: entered with every buffer at `B5`, left with every buffer at `B6`. -/
def item2 : Pipeline.RegionSeg (pcfgs (F := F)) adm (layers m ρ) () defs₀ noVariants noLevels levelZero 2 where
  win := launch2.win.to₀
  block_pos := launch2.block_pos
  stage_whole := launch2.stage_whole
  K := PEmpty
  osem k := k.elim
  ho := Pipeline.OwnSemFacts.none _
  hbody c := (every_point2 (R5 m ρ) c).loose
  hwaits := Pipeline.hwaits_of_owed_zero _ _ _ _ noLevels levelZero 2 fun _ _ => rfl
  pre c := iprop(StableHlo.held (c : Thread nD τ) (Pipeline.ucRefs τ sig) (B5 m ρ c) ∗ beside c)
  post c := iprop(StableHlo.held (c : Thread nD τ) (Pipeline.ucRefs τ sig) (B6 m ρ c) ∗ beside c)
  X c := iprop(∃ r, prngReg c r)
  Y c := iprop(∃ r, prngReg c r)
  Z c := Pipeline.unscopedRest (Ix := Unit) (Name := ℕ) (U := UR sig nD τ) (Lvl := ℕ) spec2 c (R5 m ρ c)
  hentry c := by
    rw [Pipeline.ownSems0_none]
    have hsplit := Pipeline.arrays_of_unscopedBufs (p := 2) (pcfgs (F := F)) adm (layers m ρ) launch2.win launch2.arr_whole c
      ((layers m ρ 2 c).share_full fun _ => rfl) (R5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (layers m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (layers m ρ) ((layers m ρ 2 c).share_full fun _ => rfl)
      (R5 m ρ c) (R6 m ρ c) ((layers m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the run -/

abbrev items : List (Pipeline.Seg (pcfgs (F := F)) adm (layers m ρ) () defs₀ noVariants noLevels levelZero) :=
  [ .host (stretch hostOps0 hostOps0_sub hostOps0_fresh (B0 m ρ)),
    .region (item0 m ρ),
    .host (stretch hostOps1 hostOps1_sub hostOps1_fresh (B2 m ρ)),
    .region (item1 m ρ),
    .host (stretch hostOps2 hostOps2_sub hostOps2_fresh (B4 m ρ)),
    .region (item2 m ρ),
    .host (stretch hostOps3 hostOps3_sub hostOps3_fresh (B6 m ρ)) ]

/-- The printed program is the run of the seven items. -/
theorem main_items (c : Dev nD) : main (F := F) c = Pipeline.Seg.run (items m ρ) := (main_chain c).trans (by chain_rfl)

set_option backward.isDefEq.respectTransparency.types false in
/-- THE RUN. From any memory with zero counters every weakly fair execution of the program terminates,
    nothing faulting, and the final memory holds every buffer at the last boundary's contents `B7`. -/
theorem run_to_end : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (layers m ρ) () cellOf_inj emb₁ defs₀ noVariants noLevels levelZero m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m ρ c) ∗ beside c) ⊢ _
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- THE FRAME: the program runs to the end and both argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (held_ref main_arg0 (by decide))).trans (B7_main_arg0 m ρ c),
     (h c _ (held_ref main_arg1 (by decide))).trans (B7_main_arg1 m ρ c)⟩) (run_to_end m ρ)

end Cert.Kernel.Combine

end
-- ==== Proof.Ideal.Layer0.lean ====
/-
  Layer 0 of the graph network's combine step, `x_new = aggr + 1 · x`, as the tiled kernel computes it.

  The layer's three arrays are [100000, 128] matrices cut into 20 row blocks of 5000 rows; grid point `t`
  reads block `t` of the aggregate and block `t` of the features and writes block `t` of the result.
  This module states what one grid point does — the result block is the entrywise sum of the aggregate
  block and the word 1.0 times the feature block — and proves that the kernel body, run on any three
  staging buffers, leaves exactly that in the result's buffer and the two inputs as it found them.
  Everything is stated for an arbitrary float interpretation `F`, so it serves the word-level reading and
  the extended-real reading alike.
-/
import proofs.«168880_j5239860101132_1_alg».proof.Proof.Gen.KernelIdeal.Launch
import proofs.«168880_j5239860101132_1_alg».proof.Proof.Gen.KernelIdeal.Skeleton
import proofs.«168880_j5239860101132_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of every buffer when the layer starts: a parameter, fixed later to what the program has
-- computed by then
variable (V : (c : Dev nD) → (b : Ref sig .tc) → Buf (Elt F) ((c : Thread nD τ).loc b))

/-! ## The row blocks -/

/-- Row block `t` of the layer's array number `w` (0 the aggregate, 1 the features, 2 the result), as the
    layer finds that array. -/
def rows0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The aggregate's staging buffer holds row block `t` of the aggregate when the body runs at point `t`: the
    block is fetched at every point and the body does not write it. -/
theorem aggr_staged0 {c : Dev nD} (dat : Dat τ (Elt F) Unit ℕ (UR sig nD τ) ℕ cfg0 c) (hA : dat.A 0 = V c (Pipeline.arrRef spec0 0))
    (hafter : ∀ t, dat.after 0 t = rows0 V c 0 t) (t : Fin cfg0.N) (d) : dat.before 0 t d = rows0 V c 0 t :=
  (dat.before_in_eq_fetched 0 rfl (fun _ => rfl) (fun _ _ _ => rfl) (fun t => by rw [hafter]; unfold Dat.blockOf rows0; rw [hA]; try rfl) t d).trans
    (by unfold Dat.fetched Dat.blockOf rows0; rw [hA]; try rfl)

/-- The same for the features' staging buffer. -/
theorem feat_staged0 {c : Dev nD} (dat : Dat τ (Elt F) Unit ℕ (UR sig nD τ) ℕ cfg0 c) (hA : dat.A 1 = V c (Pipeline.arrRef spec0 1))
    (hafter : ∀ t, dat.after 1 t = rows0 V c 1 t) (t : Fin cfg0.N) (d) : dat.before 1 t d = rows0 V c 1 t :=
  (dat.before_in_eq_fetched 1 rfl (fun _ => rfl) (fun _ _ _ => rfl) (fun t => by rw [hafter]; unfold Dat.blockOf rows0; rw [hA]; try rfl) t d).trans
    (by unfold Dat.fetched Dat.blockOf rows0; rw [hA]; try rfl)

/-! ## One grid point -/

/-- The whole [5000, 128] staging block: the one rectangle the body loads and stores through. -/
abbrev tile0 : Rect S5000x128 := Rect.unit (s := S5000x128) ![0, 0] S5000x128.size inb_S5000x128_S5000x128_0_0

/-- What one grid point leaves in the result's staging buffer, from the aggregate block `a` and the feature
    block `x`: the body's single store of `a + 1 · x` over the whole block. -/
def sumBlock0 (a : Vec F S5000x128 .f32) (x : Vec F S5000x128 .f32) : Vec F S5000x128 .f32 :=
  View.canon [⟨tile0, k0_pay1 (View.ld a tile0) (View.ld x tile0)⟩]

/-- That one store covers the whole block. -/
theorem tile_covers0 (p0 : Vec F S5000x128 .f32) (y : S5000x128.Idx) :
    ∃ pc ∈ ([⟨tile0, p0⟩] : List (View.Piece (Elt F) S5000x128 .f32)), y ∈ pc.1.set :=
  View.cover_of_tiled [⟨tile0, p0⟩] S5000x128.size (by rfl) y

set_option maxHeartbeats 1000000 in
/-- THE BODY. On three whole staging buffers — the aggregate's holding `a`, the features' holding `x`, the
    result's holding anything — the kernel body runs to the end, leaves `a` and `x` where they were and
    `sumBlock0 a x` in the result's buffer. -/
theorem body_sums0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole)
    (a : Vec F S5000x128 .f32) (x : Vec F S5000x128 .f32) (K : PUnit → sProp 𝕄) :
    iprop(owns (c : Thread nD τ) arg1 fullShare a ∗ owns (c : Thread nD τ) arg2 fullShare x ∗ (∃ d, owns (c : Thread nD τ) arg3 fullShare d)
        ∗ (iprop(owns (c : Thread nD τ) arg1 fullShare a ∗ owns (c : Thread nD τ) arg2 fullShare x ∗ owns (c : Thread nD τ) arg3 fullShare (sumBlock0 a x)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers0 _)

/-! ## The layer's bookkeeping: what every staging buffer holds after every grid point -/

/-- After the body at point `t` the two input buffers hold their row blocks and the result's buffer holds the
    sum block of the two; the arrays are the ones the layer found; nothing is owed between cores. -/
def layer0 (c : Dev nD) : Dat τ (Elt F) Unit ℕ (UR sig nD τ) ℕ cfg0 c where
  A w := V c (Pipeline.arrRef spec0 w)
  after w t := match w with
    | ⟨0, _⟩ => rows0 V c 0 t
    | ⟨1, _⟩ => rows0 V c 1 t
    | ⟨2, _⟩ => sumBlock0 (rows0 V c 0 t) (rows0 V c 1 t)
  Φ _ := Pipeline.ΦA spec0 c
  q _ := fullShare
  owed _ := 0

theorem layer_arrays0 (c : Dev nD) (w : Fin cfg0.W) : (layer0 V c).A w = V c (Pipeline.arrRef spec0 w) := by
  dsimp only [layer0]

theorem after_aggr0 (c : Dev nD) (t : Fin cfg0.N) : (layer0 V c).after 0 t = rows0 V c 0 t := by dsimp only [layer0]
theorem after_feat0 (c : Dev nD) (t : Fin cfg0.N) : (layer0 V c).after 1 t = rows0 V c 1 t := by dsimp only [layer0]
theorem after_sum0 (c : Dev nD) (t : Fin cfg0.N) : (layer0 V c).after 2 t = sumBlock0 (rows0 V c 0 t) (rows0 V c 1 t) := by dsimp only [layer0]

theorem before_aggr0 (c : Dev nD) (t : Fin cfg0.N) (d) : (layer0 V c).before 0 t d = rows0 V c 0 t :=
  aggr_staged0 V (layer0 V c) (layer_arrays0 V c 0) (after_aggr0 V c) t d
theorem before_feat0 (c : Dev nD) (t : Fin cfg0.N) (d) : (layer0 V c).before 1 t d = rows0 V c 1 t :=
  feat_staged0 V (layer0 V c) (layer_arrays0 V c 1) (after_feat0 V c) t d

/-! ## The body at a grid point, in the form the tiling's run asks for -/

/-- What the body is called with at point `t`, -/
def atCall0 (c : Dev nD) (t : Fin cfg0.N) : sProp 𝕄 :=
  iprop((layer0 V c).Φ t.castSucc ∗ (layer0 V c).owesAt () t.castSucc
    ∗ (∃ d, owns (c : Thread nD τ) (st0_0 t) fullShare ((layer0 V c).before 0 t d))
    ∗ (∃ d, owns (c : Thread nD τ) (st0_1 t) fullShare ((layer0 V c).before 1 t d))
    ∗ (∃ d, owns (c : Thread nD τ) (st0_2 t) fullShare ((layer0 V c).before 2 t d)))

/-- and what it returns. -/
def atReturn0 (c : Dev nD) (t : Fin cfg0.N) : sProp 𝕄 :=
  iprop((layer0 V c).Φ t.succ ∗ (layer0 V c).owesAt () t.succ
    ∗ owns (c : Thread nD τ) (st0_0 t) fullShare ((layer0 V c).after 0 t)
    ∗ owns (c : Thread nD τ) (st0_1 t) fullShare ((layer0 V c).after 1 t)
    ∗ owns (c : Thread nD τ) (st0_2 t) fullShare ((layer0 V c).after 2 t))

/-- At any grid point the input buffers hold their row blocks, so `body_sums0` applies; what the body does
    not touch passes through. -/
theorem point_runs0 (c : Dev nD) (t : Fin cfg0.N) :
    atCall0 V c t ⊢ wp frame (wpE (defs₀ (F := F)) Variants.none c none) Set.univ (bodyAt0 t) (fun _ => atReturn0 V c t) := by
  unfold atCall0 atReturn0 bodyAt0
  simp only [before_aggr0, before_feat0]
  rw [show (layer0 V c).Φ t.succ = (layer0 V c).Φ t.castSucc from rfl,
    show (layer0 V c).owesAt () t.succ = (layer0 V c).owesAt () t.castSucc from rfl,
    after_aggr0, after_feat0, after_sum0]
  iintro ⟨HΦ, Ho, ⟨%d0, H0⟩, ⟨%d1, H1⟩, ⟨%d2, H2⟩⟩
  iapply (body_sums0 c Set.univ (grid0.coords t) _ _ _ _ _ _ (rows0 V c 0 t) (rows0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer runs. -/
theorem every_point0 (c : Dev nD) : BodyObligation (layer0 (F := F) V c) (defs₀ (F := F)) Variants.none () Set.univ := fun t => by
  rw [bigSep_W0, bigSep_W0]
  exact point_runs0 V c t

end Cert.KernelIdeal.Combine

end
-- ==== Proof.Ideal.Layer1.lean ====
/-
  Layer 1 of the graph network's combine step, `x_new = aggr + 1 · x`, as the tiled kernel computes it.

  The layer's three arrays are [100000, 128] matrices cut into 20 row blocks of 5000 rows; grid point `t`
  reads block `t` of the aggregate and block `t` of the features and writes block `t` of the result.
  This module states what one grid point does — the result block is the entrywise sum of the aggregate
  block and the word 1.0 times the feature block — and proves that the kernel body, run on any three
  staging buffers, leaves exactly that in the result's buffer and the two inputs as it found them.
  Everything is stated for an arbitrary float interpretation `F`, so it serves the word-level reading and
  the extended-real reading alike.
-/
import proofs.«168880_j5239860101132_1_alg».proof.Proof.Gen.KernelIdeal.Launch
import proofs.«168880_j5239860101132_1_alg».proof.Proof.Gen.KernelIdeal.Skeleton
import proofs.«168880_j5239860101132_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of every buffer when the layer starts: a parameter, fixed later to what the program has
-- computed by then
variable (V : (c : Dev nD) → (b : Ref sig .tc) → Buf (Elt F) ((c : Thread nD τ).loc b))

/-! ## The row blocks -/

/-- Row block `t` of the layer's array number `w` (0 the aggregate, 1 the features, 2 the result), as the
    layer finds that array. -/
def rows1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's staging buffer holds row block `t` of the aggregate when the body runs at point `t`: the
    block is fetched at every point and the body does not write it. -/
theorem aggr_staged1 {c : Dev nD} (dat : Dat τ (Elt F) Unit ℕ (UR sig nD τ) ℕ cfg1 c) (hA : dat.A 0 = V c (Pipeline.arrRef spec1 0))
    (hafter : ∀ t, dat.after 0 t = rows1 V c 0 t) (t : Fin cfg1.N) (d) : dat.before 0 t d = rows1 V c 0 t :=
  (dat.before_in_eq_fetched 0 rfl (fun _ => rfl) (fun _ _ _ => rfl) (fun t => by rw [hafter]; unfold Dat.blockOf rows1; rw [hA]; try rfl) t d).trans
    (by unfold Dat.fetched Dat.blockOf rows1; rw [hA]; try rfl)

/-- The same for the features' staging buffer. -/
theorem feat_staged1 {c : Dev nD} (dat : Dat τ (Elt F) Unit ℕ (UR sig nD τ) ℕ cfg1 c) (hA : dat.A 1 = V c (Pipeline.arrRef spec1 1))
    (hafter : ∀ t, dat.after 1 t = rows1 V c 1 t) (t : Fin cfg1.N) (d) : dat.before 1 t d = rows1 V c 1 t :=
  (dat.before_in_eq_fetched 1 rfl (fun _ => rfl) (fun _ _ _ => rfl) (fun t => by rw [hafter]; unfold Dat.blockOf rows1; rw [hA]; try rfl) t d).trans
    (by unfold Dat.fetched Dat.blockOf rows1; rw [hA]; try rfl)

/-! ## One grid point -/

/-- The whole [5000, 128] staging block: the one rectangle the body loads and stores through. -/
abbrev tile1 : Rect S5000x128 := Rect.unit (s := S5000x128) ![0, 0] S5000x128.size inb_S5000x128_S5000x128_0_0

/-- What one grid point leaves in the result's staging buffer, from the aggregate block `a` and the feature
    block `x`: the body's single store of `a + 1 · x` over the whole block. -/
def sumBlock1 (a : Vec F S5000x128 .f32) (x : Vec F S5000x128 .f32) : Vec F S5000x128 .f32 :=
  View.canon [⟨tile1, k1_pay1 (View.ld a tile1) (View.ld x tile1)⟩]

/-- That one store covers the whole block. -/
theorem tile_covers1 (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

set_option maxHeartbeats 1000000 in
/-- THE BODY. On three whole staging buffers — the aggregate's holding `a`, the features' holding `x`, the
    result's holding anything — the kernel body runs to the end, leaves `a` and `x` where they were and
    `sumBlock1 a x` in the result's buffer. -/
theorem body_sums1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole)
    (a : Vec F S5000x128 .f32) (x : Vec F S5000x128 .f32) (K : PUnit → sProp 𝕄) :
    iprop(owns (c : Thread nD τ) arg1 fullShare a ∗ owns (c : Thread nD τ) arg2 fullShare x ∗ (∃ d, owns (c : Thread nD τ) arg3 fullShare d)
        ∗ (iprop(owns (c : Thread nD τ) arg1 fullShare a ∗ owns (c : Thread nD τ) arg2 fullShare x ∗ owns (c : Thread nD τ) arg3 fullShare (sumBlock1 a x)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers1 _)

/-! ## The layer's bookkeeping: what every staging buffer holds after every grid point -/

/-- After the body at point `t` the two input buffers hold their row blocks and the result's buffer holds the
    sum block of the two; the arrays are the ones the layer found; nothing is owed between cores. -/
def layer1 (c : Dev nD) : Dat τ (Elt F) Unit ℕ (UR sig nD τ) ℕ cfg1 c where
  A w := V c (Pipeline.arrRef spec1 w)
  after w t := match w with
    | ⟨0, _⟩ => rows1 V c 0 t
    | ⟨1, _⟩ => rows1 V c 1 t
    | ⟨2, _⟩ => sumBlock1 (rows1 V c 0 t) (rows1 V c 1 t)
  Φ _ := Pipeline.ΦA spec1 c
  q _ := fullShare
  owed _ := 0

theorem layer_arrays1 (c : Dev nD) (w : Fin cfg1.W) : (layer1 V c).A w = V c (Pipeline.arrRef spec1 w) := by
  dsimp only [layer1]

theorem after_aggr1 (c : Dev nD) (t : Fin cfg1.N) : (layer1 V c).after 0 t = rows1 V c 0 t := by dsimp only [layer1]
theorem after_feat1 (c : Dev nD) (t : Fin cfg1.N) : (layer1 V c).after 1 t = rows1 V c 1 t := by dsimp only [layer1]
theorem after_sum1 (c : Dev nD) (t : Fin cfg1.N) : (layer1 V c).after 2 t = sumBlock1 (rows1 V c 0 t) (rows1 V c 1 t) := by dsimp only [layer1]

theorem before_aggr1 (c : Dev nD) (t : Fin cfg1.N) (d) : (layer1 V c).before 0 t d = rows1 V c 0 t :=
  aggr_staged1 V (layer1 V c) (layer_arrays1 V c 0) (after_aggr1 V c) t d
theorem before_feat1 (c : Dev nD) (t : Fin cfg1.N) (d) : (layer1 V c).before 1 t d = rows1 V c 1 t :=
  feat_staged1 V (layer1 V c) (layer_arrays1 V c 1) (after_feat1 V c) t d

/-! ## The body at a grid point, in the form the tiling's run asks for -/

/-- What the body is called with at point `t`, -/
def atCall1 (c : Dev nD) (t : Fin cfg1.N) : sProp 𝕄 :=
  iprop((layer1 V c).Φ t.castSucc ∗ (layer1 V c).owesAt () t.castSucc
    ∗ (∃ d, owns (c : Thread nD τ) (st1_0 t) fullShare ((layer1 V c).before 0 t d))
    ∗ (∃ d, owns (c : Thread nD τ) (st1_1 t) fullShare ((layer1 V c).before 1 t d))
    ∗ (∃ d, owns (c : Thread nD τ) (st1_2 t) fullShare ((layer1 V c).before 2 t d)))

/-- and what it returns. -/
def atReturn1 (c : Dev nD) (t : Fin cfg1.N) : sProp 𝕄 :=
  iprop((layer1 V c).Φ t.succ ∗ (layer1 V c).owesAt () t.succ
    ∗ owns (c : Thread nD τ) (st1_0 t) fullShare ((layer1 V c).after 0 t)
    ∗ owns (c : Thread nD τ) (st1_1 t) fullShare ((layer1 V c).after 1 t)
    ∗ owns (c : Thread nD τ) (st1_2 t) fullShare ((layer1 V c).after 2 t))

/-- At any grid point the input buffers hold their row blocks, so `body_sums1` applies; what the body does
    not touch passes through. -/
theorem point_runs1 (c : Dev nD) (t : Fin cfg1.N) :
    atCall1 V c t ⊢ wp frame (wpE (defs₀ (F := F)) Variants.none c none) Set.univ (bodyAt1 t) (fun _ => atReturn1 V c t) := by
  unfold atCall1 atReturn1 bodyAt1
  simp only [before_aggr1, before_feat1]
  rw [show (layer1 V c).Φ t.succ = (layer1 V c).Φ t.castSucc from rfl,
    show (layer1 V c).owesAt () t.succ = (layer1 V c).owesAt () t.castSucc from rfl,
    after_aggr1, after_feat1, after_sum1]
  iintro ⟨HΦ, Ho, ⟨%d0, H0⟩, ⟨%d1, H1⟩, ⟨%d2, H2⟩⟩
  iapply (body_sums1 c Set.univ (grid1.coords t) _ _ _ _ _ _ (rows1 V c 0 t) (rows1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer runs. -/
theorem every_point1 (c : Dev nD) : BodyObligation (layer1 (F := F) V c) (defs₀ (F := F)) Variants.none () Set.univ := fun t => by
  rw [bigSep_W1, bigSep_W1]
  exact point_runs1 V c t

end Cert.KernelIdeal.Combine

end
-- ==== Proof.Ideal.Layer2.lean ====
/-
  Layer 2 of the graph network's combine step, `x_new = aggr + 1 · x`, as the tiled kernel computes it.

  The layer's three arrays are [100000, 128] matrices cut into 20 row blocks of 5000 rows; grid point `t`
  reads block `t` of the aggregate and block `t` of the features and writes block `t` of the result.
  This module states what one grid point does — the result block is the entrywise sum of the aggregate
  block and the word 1.0 times the feature block — and proves that the kernel body, run on any three
  staging buffers, leaves exactly that in the result's buffer and the two inputs as it found them.
  Everything is stated for an arbitrary float interpretation `F`, so it serves the word-level reading and
  the extended-real reading alike.
-/
import proofs.«168880_j5239860101132_1_alg».proof.Proof.Gen.KernelIdeal.Launch
import proofs.«168880_j5239860101132_1_alg».proof.Proof.Gen.KernelIdeal.Skeleton
import proofs.«168880_j5239860101132_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of every buffer when the layer starts: a parameter, fixed later to what the program has
-- computed by then
variable (V : (c : Dev nD) → (b : Ref sig .tc) → Buf (Elt F) ((c : Thread nD τ).loc b))

/-! ## The row blocks -/

/-- Row block `t` of the layer's array number `w` (0 the aggregate, 1 the features, 2 the result), as the
    layer finds that array. -/
def rows2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregate's staging buffer holds row block `t` of the aggregate when the body runs at point `t`: the
    block is fetched at every point and the body does not write it. -/
theorem aggr_staged2 {c : Dev nD} (dat : Dat τ (Elt F) Unit ℕ (UR sig nD τ) ℕ cfg2 c) (hA : dat.A 0 = V c (Pipeline.arrRef spec2 0))
    (hafter : ∀ t, dat.after 0 t = rows2 V c 0 t) (t : Fin cfg2.N) (d) : dat.before 0 t d = rows2 V c 0 t :=
  (dat.before_in_eq_fetched 0 rfl (fun _ => rfl) (fun _ _ _ => rfl) (fun t => by rw [hafter]; unfold Dat.blockOf rows2; rw [hA]; try rfl) t d).trans
    (by unfold Dat.fetched Dat.blockOf rows2; rw [hA]; try rfl)

/-- The same for the features' staging buffer. -/
theorem feat_staged2 {c : Dev nD} (dat : Dat τ (Elt F) Unit ℕ (UR sig nD τ) ℕ cfg2 c) (hA : dat.A 1 = V c (Pipeline.arrRef spec2 1))
    (hafter : ∀ t, dat.after 1 t = rows2 V c 1 t) (t : Fin cfg2.N) (d) : dat.before 1 t d = rows2 V c 1 t :=
  (dat.before_in_eq_fetched 1 rfl (fun _ => rfl) (fun _ _ _ => rfl) (fun t => by rw [hafter]; unfold Dat.blockOf rows2; rw [hA]; try rfl) t d).trans
    (by unfold Dat.fetched Dat.blockOf rows2; rw [hA]; try rfl)

/-! ## One grid point -/

/-- The whole [5000, 128] staging block: the one rectangle the body loads and stores through. -/
abbrev tile2 : Rect S5000x128 := Rect.unit (s := S5000x128) ![0, 0] S5000x128.size inb_S5000x128_S5000x128_0_0

/-- What one grid point leaves in the result's staging buffer, from the aggregate block `a` and the feature
    block `x`: the body's single store of `a + 1 · x` over the whole block. -/
def sumBlock2 (a : Vec F S5000x128 .f32) (x : Vec F S5000x128 .f32) : Vec F S5000x128 .f32 :=
  View.canon [⟨tile2, k2_pay1 (View.ld a tile2) (View.ld x tile2)⟩]

/-- That one store covers the whole block. -/
theorem tile_covers2 (p0 : Vec F S5000x128 .f32) (y : S5000x128.Idx) :
    ∃ pc ∈ ([⟨tile2, p0⟩] : List (View.Piece (Elt F) S5000x128 .f32)), y ∈ pc.1.set :=
  View.cover_of_tiled [⟨tile2, p0⟩] S5000x128.size (by rfl) y

set_option maxHeartbeats 1000000 in
/-- THE BODY. On three whole staging buffers — the aggregate's holding `a`, the features' holding `x`, the
    result's holding anything — the kernel body runs to the end, leaves `a` and `x` where they were and
    `sumBlock2 a x` in the result's buffer. -/
theorem body_sums2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S5000x128 .f32) (harg3 : arg3.IsWhole)
    (a : Vec F S5000x128 .f32) (x : Vec F S5000x128 .f32) (K : PUnit → sProp 𝕄) :
    iprop(owns (c : Thread nD τ) arg1 fullShare a ∗ owns (c : Thread nD τ) arg2 fullShare x ∗ (∃ d, owns (c : Thread nD τ) arg3 fullShare d)
        ∗ (iprop(owns (c : Thread nD τ) arg1 fullShare a ∗ owns (c : Thread nD τ) arg2 fullShare x ∗ owns (c : Thread nD τ) arg3 fullShare (sumBlock2 a x)) -∗ K ⟨⟩))
      ⊢ wp frame (wpE (defs₀ (F := F)) Variants.none c none) E (cc2__combine_kernel i arg1 harg1 arg2 harg2 arg3 harg3) K := by
  simp only [cc2__combine_kernel_eq_skeleton]; unfold cc2__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_covers2 _)

/-! ## The layer's bookkeeping: what every staging buffer holds after every grid point -/

/-- After the body at point `t` the two input buffers hold their row blocks and the result's buffer holds the
    sum block of the two; the arrays are the ones the layer found; nothing is owed between cores. -/
def layer2 (c : Dev nD) : Dat τ (Elt F) Unit ℕ (UR sig nD τ) ℕ cfg2 c where
  A w := V c (Pipeline.arrRef spec2 w)
  after w t := match w with
    | ⟨0, _⟩ => rows2 V c 0 t
    | ⟨1, _⟩ => rows2 V c 1 t
    | ⟨2, _⟩ => sumBlock2 (rows2 V c 0 t) (rows2 V c 1 t)
  Φ _ := Pipeline.ΦA spec2 c
  q _ := fullShare
  owed _ := 0

theorem layer_arrays2 (c : Dev nD) (w : Fin cfg2.W) : (layer2 V c).A w = V c (Pipeline.arrRef spec2 w) := by
  dsimp only [layer2]

theorem after_aggr2 (c : Dev nD) (t : Fin cfg2.N) : (layer2 V c).after 0 t = rows2 V c 0 t := by dsimp only [layer2]
theorem after_feat2 (c : Dev nD) (t : Fin cfg2.N) : (layer2 V c).after 1 t = rows2 V c 1 t := by dsimp only [layer2]
theorem after_sum2 (c : Dev nD) (t : Fin cfg2.N) : (layer2 V c).after 2 t = sumBlock2 (rows2 V c 0 t) (rows2 V c 1 t) := by dsimp only [layer2]

theorem before_aggr2 (c : Dev nD) (t : Fin cfg2.N) (d) : (layer2 V c).before 0 t d = rows2 V c 0 t :=
  aggr_staged2 V (layer2 V c) (layer_arrays2 V c 0) (after_aggr2 V c) t d
theorem before_feat2 (c : Dev nD) (t : Fin cfg2.N) (d) : (layer2 V c).before 1 t d = rows2 V c 1 t :=
  feat_staged2 V (layer2 V c) (layer_arrays2 V c 1) (after_feat2 V c) t d

/-! ## The body at a grid point, in the form the tiling's run asks for -/

/-- What the body is called with at point `t`, -/
def atCall2 (c : Dev nD) (t : Fin cfg2.N) : sProp 𝕄 :=
  iprop((layer2 V c).Φ t.castSucc ∗ (layer2 V c).owesAt () t.castSucc
    ∗ (∃ d, owns (c : Thread nD τ) (st2_0 t) fullShare ((layer2 V c).before 0 t d))
    ∗ (∃ d, owns (c : Thread nD τ) (st2_1 t) fullShare ((layer2 V c).before 1 t d))
    ∗ (∃ d, owns (c : Thread nD τ) (st2_2 t) fullShare ((layer2 V c).before 2 t d)))

/-- and what it returns. -/
def atReturn2 (c : Dev nD) (t : Fin cfg2.N) : sProp 𝕄 :=
  iprop((layer2 V c).Φ t.succ ∗ (layer2 V c).owesAt () t.succ
    ∗ owns (c : Thread nD τ) (st2_0 t) fullShare ((layer2 V c).after 0 t)
    ∗ owns (c : Thread nD τ) (st2_1 t) fullShare ((layer2 V c).after 1 t)
    ∗ owns (c : Thread nD τ) (st2_2 t) fullShare ((layer2 V c).after 2 t))

/-- At any grid point the input buffers hold their row blocks, so `body_sums2` applies; what the body does
    not touch passes through. -/
theorem point_runs2 (c : Dev nD) (t : Fin cfg2.N) :
    atCall2 V c t ⊢ wp frame (wpE (defs₀ (F := F)) Variants.none c none) Set.univ (bodyAt2 t) (fun _ => atReturn2 V c t) := by
  unfold atCall2 atReturn2 bodyAt2
  simp only [before_aggr2, before_feat2]
  rw [show (layer2 V c).Φ t.succ = (layer2 V c).Φ t.castSucc from rfl,
    show (layer2 V c).owesAt () t.succ = (layer2 V c).owesAt () t.castSucc from rfl,
    after_aggr2, after_feat2, after_sum2]
  iintro ⟨HΦ, Ho, ⟨%d0, H0⟩, ⟨%d1, H1⟩, ⟨%d2, H2⟩⟩
  iapply (body_sums2 c Set.univ (grid2.coords t) _ _ _ _ _ _ (rows2 V c 0 t) (rows2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Every grid point of the layer runs. -/
theorem every_point2 (c : Dev nD) : BodyObligation (layer2 (F := F) V c) (defs₀ (F := F)) Variants.none () Set.univ := fun t => by
  rw [bigSep_W2, bigSep_W2]
  exact point_runs2 V c t

end Cert.KernelIdeal.Combine

end
-- ==== Proof.Ideal.Whole.lean ====
/-
  The whole program, from launch to return: four stretches of host operations (the gather of source rows and
  the scatter-add into target rows before each layer; the concatenation and the final scaling after the last)
  with the three tiled combine layers between them.

  What every buffer holds at each of the eight boundaries is written down as a fold from the launch memory:
  a host stretch applies its operations; a layer replaces its result array by what its grid points wrote back
  and leaves every other buffer alone. Every weakly fair execution terminates, and the final memory holds,
  at every buffer, the fold's last stage. From that one statement follow both "the argument arrays end as they
  were launched" and, elsewhere, the value of the result. Stated for any float interpretation `F`.
-/
import proofs.«168880_j5239860101132_1_alg».proof.Proof.Ideal.Layer0
import proofs.«168880_j5239860101132_1_alg».proof.Proof.Ideal.Layer1
import proofs.«168880_j5239860101132_1_alg».proof.Proof.Ideal.Layer2
import proofs.«168880_j5239860101132_1_alg».proof.Proof.Gen.KernelIdeal.Regions

set_option maxRecDepth 16384

noncomputable section

namespace Cert.KernelIdeal.Combine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the eight boundaries -/

/-- At launch. -/
abbrev B0 : Dev nD → Valuation τ sig (Elt F) := fun c b => (s₀ m ρ).mem ((c : Dev nD), b)
/-- After the first host stretch: the first aggregate is computed. -/
abbrev B1 : Dev nD → Valuation τ sig (Elt F) := fun c => StableHlo.after hostOps0 (B0 m ρ c)
abbrev R1 : (c : Dev nD) → (b : Ref sig .tc) → Buf (Elt F) ((c : Thread nD τ).loc b) := fun c b => B1 m ρ c b
/-- After layer 0: its result array holds what its grid points wrote back. -/
def B2 (c : Dev nD) : Valuation τ sig (Elt F) :=
  Pipeline.withArrays spec0 c (B1 m ρ c) fun w => (layer0 (R1 m ρ) c).arrAt w cfg0.N
theorem B2_arr (c : Dev nD) (w : Fin cfg0.W) :
    B2 m ρ c (Proc.devRef .tc (Pipeline.arrRef spec0 w)) = (layer0 (R1 m ρ) c).arrAt w cfg0.N := by
  unfold B2; exact Pipeline.withArrays_arr spec0 launch0.win.arr_inj c _ _ w
theorem B2_keep (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev R2 : (c : Dev nD) → (b : Ref sig .tc) → Buf (Elt F) ((c : Thread nD τ).loc b) := fun c b => B2 m ρ c b
theorem left0 (c : Dev nD) (w : Fin cfg0.W) : (layer0 (R1 m ρ) c).arrAt w cfg0.N = R2 m ρ c (Pipeline.arrRef spec0 w) :=
  (B2_arr m ρ c w).symm
theorem rest0 (c : Dev nD) : ∀ b, b ∉ Finset.univ.image (Pipeline.arrRef spec0) → R2 m ρ c b = R1 m ρ c b :=
  fun b hb => B2_keep m ρ c b fun w e => hb (Finset.mem_image.mpr ⟨w, Finset.mem_univ _, e⟩)

/-- After the second host stretch: the second aggregate. -/
abbrev B3 : Dev nD → Valuation τ sig (Elt F) := fun c => StableHlo.after hostOps1 (B2 m ρ c)
abbrev R3 : (c : Dev nD) → (b : Ref sig .tc) → Buf (Elt F) ((c : Thread nD τ).loc b) := fun c b => B3 m ρ c b
/-- After layer 1. -/
def B4 (c : Dev nD) : Valuation τ sig (Elt F) :=
  Pipeline.withArrays spec1 c (B3 m ρ c) fun w => (layer1 (R3 m ρ) c).arrAt w cfg1.N
theorem B4_arr (c : Dev nD) (w : Fin cfg1.W) :
    B4 m ρ c (Proc.devRef .tc (Pipeline.arrRef spec1 w)) = (layer1 (R3 m ρ) c).arrAt w cfg1.N := by
  unfold B4; exact Pipeline.withArrays_arr spec1 launch1.win.arr_inj c _ _ w
theorem B4_keep (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev R4 : (c : Dev nD) → (b : Ref sig .tc) → Buf (Elt F) ((c : Thread nD τ).loc b) := fun c b => B4 m ρ c b
theorem left1 (c : Dev nD) (w : Fin cfg1.W) : (layer1 (R3 m ρ) c).arrAt w cfg1.N = R4 m ρ c (Pipeline.arrRef spec1 w) :=
  (B4_arr m ρ c w).symm
theorem rest1 (c : Dev nD) : ∀ b, b ∉ Finset.univ.image (Pipeline.arrRef spec1) → R4 m ρ c b = R3 m ρ c b :=
  fun b hb => B4_keep m ρ c b fun w e => hb (Finset.mem_image.mpr ⟨w, Finset.mem_univ _, e⟩)

/-- After the third host stretch: the third aggregate. -/
abbrev B5 : Dev nD → Valuation τ sig (Elt F) := fun c => StableHlo.after hostOps2 (B4 m ρ c)
abbrev R5 : (c : Dev nD) → (b : Ref sig .tc) → Buf (Elt F) ((c : Thread nD τ).loc b) := fun c b => B5 m ρ c b
/-- After layer 2. -/
def B6 (c : Dev nD) : Valuation τ sig (Elt F) :=
  Pipeline.withArrays spec2 c (B5 m ρ c) fun w => (layer2 (R5 m ρ) c).arrAt w cfg2.N
theorem B6_arr (c : Dev nD) (w : Fin cfg2.W) :
    B6 m ρ c (Proc.devRef .tc (Pipeline.arrRef spec2 w)) = (layer2 (R5 m ρ) c).arrAt w cfg2.N := by
  unfold B6; exact Pipeline.withArrays_arr spec2 launch2.win.arr_inj c _ _ w
theorem B6_keep (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev R6 : (c : Dev nD) → (b : Ref sig .tc) → Buf (Elt F) ((c : Thread nD τ).loc b) := fun c b => B6 m ρ c b
theorem left2 (c : Dev nD) (w : Fin cfg2.W) : (layer2 (R5 m ρ) c).arrAt w cfg2.N = R6 m ρ c (Pipeline.arrRef spec2 w) :=
  (B6_arr m ρ c w).symm
theorem rest2 (c : Dev nD) : ∀ b, b ∉ Finset.univ.image (Pipeline.arrRef spec2) → R6 m ρ c b = R5 m ρ c b :=
  fun b hb => B6_keep m ρ c b fun w e => hb (Finset.mem_image.mpr ⟨w, Finset.mem_univ _, e⟩)

/-- At return: the four feature blocks concatenated and scaled. -/
abbrev B7 : Dev nD → Valuation τ sig (Elt F) := fun c => StableHlo.after hostOps3 (B6 m ρ c)

/-! ## A buffer that a stretch does not write, or that is none of a layer's arrays, is carried across it -/

theorem B1_keep (c : Dev nD) (r : Ref sig .tc) (h : r ∉ hostOps0_W) : B1 m ρ c r = B0 m ρ c r :=
  StableHlo.after_of_writes_sub hostOps0 _ hostOps0_writes h
theorem B3_keep (c : Dev nD) (r : Ref sig .tc) (h : r ∉ hostOps1_W) : B3 m ρ c r = B2 m ρ c r :=
  StableHlo.after_of_writes_sub hostOps1 _ hostOps1_writes h
theorem B5_keep (c : Dev nD) (r : Ref sig .tc) (h : r ∉ hostOps2_W) : B5 m ρ c r = B4 m ρ c r :=
  StableHlo.after_of_writes_sub hostOps2 _ hostOps2_writes h
theorem B7_keep (c : Dev nD) (r : Ref sig .tc) (h : r ∉ hostOps3_W) : B7 m ρ c r = B6 m ρ c r :=
  StableHlo.after_of_writes_sub hostOps3 _ hostOps3_writes h

/-- Layer 0 reads the features (the first argument) through an input window: the array is as the layer found it. -/
theorem B2_features (c : Dev nD) : B2 m ρ c (Proc.devRef .tc main_arg0) = B1 m ρ c (Proc.devRef .tc main_arg0) :=
  (B2_arr m ρ c 1).trans (((layer0 (R1 m ρ) c).arrAt_in 1 rfl _).trans (layer_arrays0 (R1 m ρ) c 1))

/-- The feature matrix reaches the end as launched. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := B7_keep m ρ c main_arg0 (by decide)
    _ = B5 m ρ c (Proc.devRef .tc main_arg0) := B6_keep m ρ c main_arg0 (by decide)
    _ = B4 m ρ c (Proc.devRef .tc main_arg0) := B5_keep m ρ c main_arg0 (by decide)
    _ = B3 m ρ c (Proc.devRef .tc main_arg0) := B4_keep m ρ c main_arg0 (by decide)
    _ = B2 m ρ c (Proc.devRef .tc main_arg0) := B3_keep m ρ c main_arg0 (by decide)
    _ = B1 m ρ c (Proc.devRef .tc main_arg0) := B2_features m ρ c
    _ = B0 m ρ c (Proc.devRef .tc main_arg0) := B1_keep m ρ c main_arg0 (by decide)
    _ = m ((c : Thread nD τ).loc main_arg0) := rfl

/-- The edge list reaches the end as launched. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := B7_keep m ρ c main_arg1 (by decide)
    _ = B5 m ρ c (Proc.devRef .tc main_arg1) := B6_keep m ρ c main_arg1 (by decide)
    _ = B4 m ρ c (Proc.devRef .tc main_arg1) := B5_keep m ρ c main_arg1 (by decide)
    _ = B3 m ρ c (Proc.devRef .tc main_arg1) := B4_keep m ρ c main_arg1 (by decide)
    _ = B2 m ρ c (Proc.devRef .tc main_arg1) := B3_keep m ρ c main_arg1 (by decide)
    _ = B1 m ρ c (Proc.devRef .tc main_arg1) := B2_keep m ρ c main_arg1 (by decide)
    _ = B0 m ρ c (Proc.devRef .tc main_arg1) := B1_keep m ρ c main_arg1 (by decide)
    _ = m ((c : Thread nD τ).loc main_arg1) := rfl

/-! ## The run's data -/

/-- Each layer's bookkeeping, taken at the buffers that layer finds. -/
def layers : (p : Fin 3) → (c : Dev nD) → Dat τ (Elt F) Unit ℕ (UR sig nD τ) ℕ (Pipeline.pin (pcfgs (F := F)) adm p) c
  | ⟨0, _⟩ => fun c => layer0 (R1 m ρ) c
  | ⟨1, _⟩ => fun c => layer1 (R3 m ρ) c
  | ⟨2, _⟩ => fun c => layer2 (R5 m ρ) c
abbrev noVariants : Variants := Variants.none
abbrev noLevels : GSem nD τ sig → Finset Unit := fun _ => ∅
abbrev levelZero : GSem nD τ sig → Unit → ℕ := fun _ _ => 0
/-- What a core carries beside its buffers between items: its generator register, and owing nothing. -/
abbrev beside (c : Dev nD) : sProp 𝕄 := iprop((∃ r, prngReg c r) ∗ ∃ W, owes (c : Thread nD τ) (0 : CellTallies nD τ sig Unit) W)

/-- A stretch of host operations as an item of the run. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state: every buffer at the last boundary's contents, the generator register at some state. -/
abbrev atEnd (c : Dev nD) : sProp 𝕄 := iprop(StableHlo.held (c : Thread nD τ) (Pipeline.ucRefs τ sig) (B7 m ρ c) ∗ ∃ r, prngReg c r)

/-! ## The layers as items of the run -/

set_option backward.isDefEq.respectTransparency.types false in
/-- LAYER 0 as an item: entered with every buffer at `B1`, left with every buffer at `B2`. Its three arrays are
    taken out of the buffers on entry and put back, at what the grid points left, on exit. -/
def item0 : Pipeline.RegionSeg (pcfgs (F := F)) adm (layers m ρ) () defs₀ noVariants noLevels levelZero 0 where
  win := launch0.win.to₀
  block_pos := launch0.block_pos
  stage_whole := launch0.stage_whole
  K := PEmpty
  osem k := k.elim
  ho := Pipeline.OwnSemFacts.none _
  hbody c := (every_point0 (R1 m ρ) c).loose
  hwaits := Pipeline.hwaits_of_owed_zero _ _ _ _ noLevels levelZero 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) adm (layers m ρ) launch0.win launch0.arr_whole c
      ((layers m ρ 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (layers m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (layers m ρ) ((layers m ρ 0 c).share_full fun _ => rfl)
      (R1 m ρ c) (R2 m ρ c) ((layers m ρ 0 c).arrAt · cfg0.N) (left0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 1 as an item: entered with every buffer at `B3`, left with every buffer at `B4`. -/
def item1 : Pipeline.RegionSeg (pcfgs (F := F)) adm (layers m ρ) () defs₀ noVariants noLevels levelZero 1 where
  win := launch1.win.to₀
  block_pos := launch1.block_pos
  stage_whole := launch1.stage_whole
  K := PEmpty
  osem k := k.elim
  ho := Pipeline.OwnSemFacts.none _
  hbody c := (every_point1 (R3 m ρ) c).loose
  hwaits := Pipeline.hwaits_of_owed_zero _ _ _ _ noLevels levelZero 1 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec1 c (R3 m ρ c)
  hentry c := by
    rw [Pipeline.ownSems0_none]
    have hsplit := Pipeline.arrays_of_unscopedBufs (p := 1) (pcfgs (F := F)) adm (layers m ρ) launch1.win launch1.arr_whole c
      ((layers m ρ 1 c).share_full fun _ => rfl) (R3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (layers m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (layers m ρ) ((layers m ρ 1 c).share_full fun _ => rfl)
      (R3 m ρ c) (R4 m ρ c) ((layers m ρ 1 c).arrAt · cfg1.N) (left1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LAYER 2 as an item: entered with every buffer at `B5`, left with every buffer at `B6`. -/
def item2 : Pipeline.RegionSeg (pcfgs (F := F)) adm (layers m ρ) () defs₀ noVariants noLevels levelZero 2 where
  win := launch2.win.to₀
  block_pos := launch2.block_pos
  stage_whole := launch2.stage_whole
  K := PEmpty
  osem k := k.elim
  ho := Pipeline.OwnSemFacts.none _
  hbody c := (every_point2 (R5 m ρ) c).loose
  hwaits := Pipeline.hwaits_of_owed_zero _ _ _ _ noLevels levelZero 2 fun _ _ => rfl
  pre c := iprop(StableHlo.held (c : Thread nD τ) (Pipeline.ucRefs τ sig) (B5 m ρ c) ∗ beside c)
  post c := iprop(StableHlo.held (c : Thread nD τ) (Pipeline.ucRefs τ sig) (B6 m ρ c) ∗ beside c)
  X c := iprop(∃ r, prngReg c r)
  Y c := iprop(∃ r, prngReg c r)
  Z c := Pipeline.unscopedRest (Ix := Unit) (Name := ℕ) (U := UR sig nD τ) (Lvl := ℕ) spec2 c (R5 m ρ c)
  hentry c := by
    rw [Pipeline.ownSems0_none]
    have hsplit := Pipeline.arrays_of_unscopedBufs (p := 2) (pcfgs (F := F)) adm (layers m ρ) launch2.win launch2.arr_whole c
      ((layers m ρ 2 c).share_full fun _ => rfl) (R5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (layers m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (layers m ρ) ((layers m ρ 2 c).share_full fun _ => rfl)
      (R5 m ρ c) (R6 m ρ c) ((layers m ρ 2 c).arrAt · cfg2.N) (left2 m ρ c) (rest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its seven items, and the run -/

abbrev items : List (Pipeline.Seg (pcfgs (F := F)) adm (layers m ρ) () defs₀ noVariants noLevels levelZero) :=
  [ .host (stretch hostOps0 hostOps0_sub hostOps0_fresh (B0 m ρ)),
    .region (item0 m ρ),
    .host (stretch hostOps1 hostOps1_sub hostOps1_fresh (B2 m ρ)),
    .region (item1 m ρ),
    .host (stretch hostOps2 hostOps2_sub hostOps2_fresh (B4 m ρ)),
    .region (item2 m ρ),
    .host (stretch hostOps3 hostOps3_sub hostOps3_fresh (B6 m ρ)) ]

/-- The printed program is the run of the seven items. -/
theorem main_items (c : Dev nD) : main (F := F) c = Pipeline.Seg.run (items m ρ) := (main_chain c).trans (by chain_rfl)

set_option backward.isDefEq.respectTransparency.types false in
/-- THE RUN. From any memory with zero counters every weakly fair execution of the program terminates,
    nothing faulting, and the final memory holds every buffer at the last boundary's contents `B7`. -/
theorem run_to_end : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (layers m ρ) () cellOf_inj emb₁ defs₀ noVariants noLevels levelZero m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (B7 m ρ c) ∗ beside c) ⊢ _
      iintro ⟨Hh, Hp, HO⟩
      isplitl [Hh Hp]
      · isplitl [Hh]; · iexact Hh
        iexact Hp
      iexact HO⟩)
    (hinit := by
      refine Pipeline.initEach noLevels levelZero fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h => h)

/-- THE FRAME: the program runs to the end and both argument arrays end as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (held_ref main_arg0 (by decide))).trans (B7_main_arg0 m ρ c),
     (h c _ (held_ref main_arg1 (by decide))).trans (B7_main_arg1 m ρ c)⟩) (run_to_end m ρ)

end Cert.KernelIdeal.Combine

end
-- ==== Proof.Ideal.Sum.lean ====
/-
  The combine step as one function of two whole matrices: entry (r, l) of the result is
  `aggr(r, l) + 1 · x(r, l)`, the 1 being the 32-bit word of 1.0 the kernel multiplies by. Stated for any float
  interpretation.
-/
import proofs.«168880_j5239860101132_1_alg».proof.KernelIdeal
import Idealize.ShloMosaic.Lib.Pipeline.Value

noncomputable section

namespace Cert.KernelIdeal.Combine

open Idealize.ShloMosaic Cert.KernelIdeal

variable {F : FTy → Type} [FloatOps F]

/-- Entry by entry: the aggregate plus the word 1.0 times the feature. -/
abbrev combined (a : S100000x128.Idx → Elt F .f32) (x : S100000x128.Idx → Elt F .f32) : S100000x128.Idx → Elt F .f32 :=
  fun i => FloatOps.addf (a i) (FloatOps.mulf (Scalar.ofBits .f32 0x3F800000#32) (x i))

/-- The kernel's loads and its store all start at the staging block's origin. -/
theorem origin : (![0, 0] : Fin 2 → Nat) = fun _ => 0 := funext fun a => by fin_cases a <;> rfl

end Cert.KernelIdeal.Combine

end
-- ==== Proof.Ideal.LayerSum0.lean ====
/-
  Layer 0 as a whole: after its twenty grid points have run, the result matrix holds, at every entry,
  the aggregate's entry plus the word 1.0 times the feature's entry.

  Grid point `t` works on rows 5000·t … 5000·t + 4999 of all three matrices (the three index maps agree), so
  what it writes back is the row block `t` of the entrywise sum of the two whole matrices; the twenty row
  blocks tile the 100000 rows, so every entry is written by the point `r / 5000`.
-/
import proofs.«168880_j5239860101132_1_alg».proof.Proof.Ideal.Layer0
import proofs.«168880_j5239860101132_1_alg».proof.Proof.Ideal.Sum
import Idealize.ShloMosaic.Lib.Pipeline.Value

set_option maxRecDepth 16384

noncomputable section

namespace Cert.KernelIdeal.Combine

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The body's stored value, entry by entry: the aggregate block's entry plus 1.0 times the feature block's. -/
theorem stored_entry0 (a : Vec F S5000x128 .f32) (x : Vec F S5000x128 .f32) (j : S5000x128.Idx) :
    k0_pay1 a x j = FloatOps.addf (a j) (FloatOps.mulf (Scalar.ofBits .f32 0x3F800000#32) (x j)) := by
  unfold k0_pay1
  simp only [shapeCast_self]
  rfl

/-- The three index maps send grid point `t` to the same row block, and to column block 0. -/
theorem same_block0 : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_2.index t (0 : Fin 2) ≤ 19 ∧ win0_2.index t (1 : Fin 2) = 0 :=
  (by decide +kernel : ∀ t : Fin grid0.N, _)

/-- Every one of the twenty row blocks is some grid point's. -/
theorem block_of_point0 : ∀ (q : Fin 20), ∃ t : Fin cfg0.N, win0_2.index t = ![q.val, 0] :=
  (by decide +kernel : ∀ (q : Fin 20), ∃ t : Fin grid0.N, win0_2.index t = ![q.val, 0])

/-- WHAT POINT `t` WRITES BACK is row block `t` of the entrywise sum of the two matrices the layer found. -/
theorem written_back0 (c : Dev nD) (t : Fin cfg0.N) :
    (layer0 V c).flushed 2 t = ((cfg0.win 2).blk t).view.read (Elt F) (combined (V c main_v13) (V c main_arg0)) := by
  show (cfg0.win 2).cut (grid0.coords t) ((layer0 V c).after 2 t) = _
  rw [after_sum0]
  unfold sumBlock0
  rw [View.canon_unit_zero origin]
  simp only [View.ld_unit_zero (S := S5000x128) origin]
  obtain ⟨e0, e1, e2, e3, e4, e5⟩ := same_block0 t
  funext j
  show k0_pay1 (rows0 V c 0 t) (rows0 V c 1 t) j = _
  rw [stored_entry0]
  show FloatOps.addf (V c main_v13 (((cfg0.win 0).blk t).view.emb j)) (FloatOps.mulf (Scalar.ofBits .f32 0x3F800000#32) (V c main_arg0 (((cfg0.win 1).blk t).view.emb j)))
    = FloatOps.addf (V c main_v13 (((cfg0.win 2).blk t).view.emb j)) (FloatOps.mulf (Scalar.ofBits .f32 0x3F800000#32) (V c main_arg0 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An entry is in point `t`'s block iff its row and its column are in the block's ranges. -/
theorem in_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v14).slice (win0_2.rect t)).set ↔ _
  rw [View.set_slice_whole, Rect.mem_set_unit]
  exact Iff.rfl

/-- Every entry of the result is written: row `r` by the point whose block is `r / 5000`. -/
theorem every_entry_written0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_of_point0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [in_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE RESULT MATRIX after the layer: the entrywise sum of the two matrices the layer found. -/
theorem result_matrix0 (c : Dev nD) : (layer0 V c).arrAt 2 cfg0.N = combined (V c main_v13) (V c main_arg0) :=
  (layer0 V c).arrAt_eq_of_cover 2 (combined (V c main_v13) (V c main_arg0)) (fun t _ => written_back0 V c t) every_entry_written0

end Cert.KernelIdeal.Combine

end
-- ==== Proof.Ideal.LayerSum1.lean ====
/-
  Layer 1 as a whole: after its twenty grid points have run, the result matrix holds, at every entry,
  the aggregate's entry plus the word 1.0 times the feature's entry.

  Grid point `t` works on rows 5000·t … 5000·t + 4999 of all three matrices (the three index maps agree), so
  what it writes back is the row block `t` of the entrywise sum of the two whole matrices; the twenty row
  blocks tile the 100000 rows, so every entry is written by the point `r / 5000`.
-/
import proofs.«168880_j5239860101132_1_alg».proof.Proof.Ideal.Layer1
import proofs.«168880_j5239860101132_1_alg».proof.Proof.Ideal.Sum
import Idealize.ShloMosaic.Lib.Pipeline.Value

set_option maxRecDepth 16384

noncomputable section

namespace Cert.KernelIdeal.Combine

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The body's stored value, entry by entry: the aggregate block's entry plus 1.0 times the feature block's. -/
theorem stored_entry1 (a : Vec F S5000x128 .f32) (x : Vec F S5000x128 .f32) (j : S5000x128.Idx) :
    k1_pay1 a x j = FloatOps.addf (a j) (FloatOps.mulf (Scalar.ofBits .f32 0x3F800000#32) (x j)) := by
  unfold k1_pay1
  simp only [shapeCast_self]
  rfl

/-- The three index maps send grid point `t` to the same row block, and to column block 0. -/
theorem same_block1 : ∀ t : Fin cfg1.N,
    win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = win1_2.index t (1 : Fin 2)
    ∧ win1_2.index t (0 : Fin 2) ≤ 19 ∧ win1_2.index t (1 : Fin 2) = 0 :=
  (by decide +kernel : ∀ t : Fin grid1.N, _)

/-- Every one of the twenty row blocks is some grid point's. -/
theorem block_of_point1 : ∀ (q : Fin 20), ∃ t : Fin cfg1.N, win1_2.index t = ![q.val, 0] :=
  (by decide +kernel : ∀ (q : Fin 20), ∃ t : Fin grid1.N, win1_2.index t = ![q.val, 0])

/-- WHAT POINT `t` WRITES BACK is row block `t` of the entrywise sum of the two matrices the layer found. -/
theorem written_back1 (c : Dev nD) (t : Fin cfg1.N) :
    (layer1 V c).flushed 2 t = ((cfg1.win 2).blk t).view.read (Elt F) (combined (V c main_v24) (V c main_v14)) := by
  show (cfg1.win 2).cut (grid1.coords t) ((layer1 V c).after 2 t) = _
  rw [after_sum1]
  unfold sumBlock1
  rw [View.canon_unit_zero origin]
  simp only [View.ld_unit_zero (S := S5000x128) origin]
  obtain ⟨e0, e1, e2, e3, e4, e5⟩ := same_block1 t
  funext j
  show k1_pay1 (rows1 V c 0 t) (rows1 V c 1 t) j = _
  rw [stored_entry1]
  show FloatOps.addf (V c main_v24 (((cfg1.win 0).blk t).view.emb j)) (FloatOps.mulf (Scalar.ofBits .f32 0x3F800000#32) (V c main_v14 (((cfg1.win 1).blk t).view.emb j)))
    = FloatOps.addf (V c main_v24 (((cfg1.win 2).blk t).view.emb j)) (FloatOps.mulf (Scalar.ofBits .f32 0x3F800000#32) (V c main_v14 (((cfg1.win 2).blk t).view.emb j)))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An entry is in point `t`'s block iff its row and its column are in the block's ranges. -/
theorem in_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v25).slice (win1_2.rect t)).set ↔ _
  rw [View.set_slice_whole, Rect.mem_set_unit]
  exact Iff.rfl

/-- Every entry of the result is written: row `r` by the point whose block is `r / 5000`. -/
theorem every_entry_written1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_of_point1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [in_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE RESULT MATRIX after the layer: the entrywise sum of the two matrices the layer found. -/
theorem result_matrix1 (c : Dev nD) : (layer1 V c).arrAt 2 cfg1.N = combined (V c main_v24) (V c main_v14) :=
  (layer1 V c).arrAt_eq_of_cover 2 (combined (V c main_v24) (V c main_v14)) (fun t _ => written_back1 V c t) every_entry_written1

end Cert.KernelIdeal.Combine

end
-- ==== Proof.Ideal.LayerSum2.lean ====
/-
  Layer 2 as a whole: after its twenty grid points have run, the result matrix holds, at every entry,
  the aggregate's entry plus the word 1.0 times the feature's entry.

  Grid point `t` works on rows 5000·t … 5000·t + 4999 of all three matrices (the three index maps agree), so
  what it writes back is the row block `t` of the entrywise sum of the two whole matrices; the twenty row
  blocks tile the 100000 rows, so every entry is written by the point `r / 5000`.
-/
import proofs.«168880_j5239860101132_1_alg».proof.Proof.Ideal.Layer2
import proofs.«168880_j5239860101132_1_alg».proof.Proof.Ideal.Sum
import Idealize.ShloMosaic.Lib.Pipeline.Value

set_option maxRecDepth 16384

noncomputable section

namespace Cert.KernelIdeal.Combine

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The body's stored value, entry by entry: the aggregate block's entry plus 1.0 times the feature block's. -/
theorem stored_entry2 (a : Vec F S5000x128 .f32) (x : Vec F S5000x128 .f32) (j : S5000x128.Idx) :
    k2_pay1 a x j = FloatOps.addf (a j) (FloatOps.mulf (Scalar.ofBits .f32 0x3F800000#32) (x j)) := by
  unfold k2_pay1
  simp only [shapeCast_self]
  rfl

/-- The three index maps send grid point `t` to the same row block, and to column block 0. -/
theorem same_block2 : ∀ t : Fin cfg2.N,
    win2_0.index t (0 : Fin 2) = win2_2.index t (0 : Fin 2) ∧ win2_0.index t (1 : Fin 2) = win2_2.index t (1 : Fin 2)
    ∧ win2_1.index t (0 : Fin 2) = win2_2.index t (0 : Fin 2) ∧ win2_1.index t (1 : Fin 2) = win2_2.index t (1 : Fin 2)
    ∧ win2_2.index t (0 : Fin 2) ≤ 19 ∧ win2_2.index t (1 : Fin 2) = 0 :=
  (by decide +kernel : ∀ t : Fin grid2.N, _)

/-- Every one of the twenty row blocks is some grid point's. -/
theorem block_of_point2 : ∀ (q : Fin 20), ∃ t : Fin cfg2.N, win2_2.index t = ![q.val, 0] :=
  (by decide +kernel : ∀ (q : Fin 20), ∃ t : Fin grid2.N, win2_2.index t = ![q.val, 0])

/-- WHAT POINT `t` WRITES BACK is row block `t` of the entrywise sum of the two matrices the layer found. -/
theorem written_back2 (c : Dev nD) (t : Fin cfg2.N) :
    (layer2 V c).flushed 2 t = ((cfg2.win 2).blk t).view.read (Elt F) (combined (V c main_v35) (V c main_v25)) := by
  show (cfg2.win 2).cut (grid2.coords t) ((layer2 V c).after 2 t) = _
  rw [after_sum2]
  unfold sumBlock2
  rw [View.canon_unit_zero origin]
  simp only [View.ld_unit_zero (S := S5000x128) origin]
  obtain ⟨e0, e1, e2, e3, e4, e5⟩ := same_block2 t
  funext j
  show k2_pay1 (rows2 V c 0 t) (rows2 V c 1 t) j = _
  rw [stored_entry2]
  show FloatOps.addf (V c main_v35 (((cfg2.win 0).blk t).view.emb j)) (FloatOps.mulf (Scalar.ofBits .f32 0x3F800000#32) (V c main_v25 (((cfg2.win 1).blk t).view.emb j)))
    = FloatOps.addf (V c main_v35 (((cfg2.win 2).blk t).view.emb j)) (FloatOps.mulf (Scalar.ofBits .f32 0x3F800000#32) (V c main_v25 (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An entry is in point `t`'s block iff its row and its column are in the block's ranges. -/
theorem in_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v36).slice (win2_2.rect t)).set ↔ _
  rw [View.set_slice_whole, Rect.mem_set_unit]
  exact Iff.rfl

/-- Every entry of the result is written: row `r` by the point whose block is `r / 5000`. -/
theorem every_entry_written2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_of_point2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [in_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- THE RESULT MATRIX after the layer: the entrywise sum of the two matrices the layer found. -/
theorem result_matrix2 (c : Dev nD) : (layer2 V c).arrAt 2 cfg2.N = combined (V c main_v35) (V c main_v25) :=
  (layer2 V c).arrAt_eq_of_cover 2 (combined (V c main_v35) (V c main_v25)) (fun t _ => written_back2 V c t) every_entry_written2

end Cert.KernelIdeal.Combine

end
-- ==== Proof.Ideal.Network.lean ====
/-
  What the tiled program computes, as one function of its two arguments.

  Write `e` for the [2, 640000] edge list and `x` for the [100000, 128] feature matrix. Row 0 of `e` gives each
  edge's source node (a negative entry counted from the end), row 1 its target node. One layer gathers the
  source rows of the current features, adds them up per target node into a zero matrix, and adds the word 1.0
  times the current features: `next s d x = aggregate s d x + 1 · x`. The program returns the four matrices
  `x, next x, next (next x), next (next (next x))` side by side, times the word 1.0.

  The host stretches compute the aggregates and the tiled layers the sums; each intermediate buffer is
  traced through the eight boundaries of the run. No property of the numbers is used: the statement holds
  for any float interpretation.
-/
import proofs.«168880_j5239860101132_1_alg».proof.Proof.Ideal.Whole
import proofs.«168880_j5239860101132_1_alg».proof.Proof.Ideal.LayerSum0
import proofs.«168880_j5239860101132_1_alg».proof.Proof.Ideal.LayerSum1
import proofs.«168880_j5239860101132_1_alg».proof.Proof.Ideal.LayerSum2
import Idealize.ShloMosaic.Lib.StableHlo.Run

set_option maxRecDepth 16384

noncomputable section

namespace Cert.KernelIdeal.Combine

open Idealize.ShloMosaic Idealize.ShloMosaic.TcCoe Idealize.ShloMosaic.StableHlo
open Idealize.SL Idealize.SL.Sem
open Idealize.ShloMosaic.Pipeline (Dat Cfg Window)
open Cert.KernelIdeal Cert.KernelIdeal.Gen

variable {F : FTy → Type} [FloatOps F]

/-! ## The network as a function -/

/-- The edges' source nodes: row 0 of the edge list. -/
def sourcesOf (e : (⟨S2x640000, .i32⟩ : BufTy).Contents (Elt F)) : (⟨S640000, .i32⟩ : BufTy).Contents (Elt F) :=
  shapeCast _ (extractStridedSlice S1x640000 ![0, 0] e slices_S2x640000_S1x640000_0_0) shapeCasts_S1x640000_S640000

/-- The edges' target nodes: row 1 of the edge list. -/
def targetsOf (e : (⟨S2x640000, .i32⟩ : BufTy).Contents (Elt F)) : (⟨S640000, .i32⟩ : BufTy).Contents (Elt F) :=
  shapeCast _ (extractStridedSlice S1x640000 ![1, 0] e slices_S2x640000_S1x640000_1_0) shapeCasts_S1x640000_S640000

/-- The sum, per target node, of the source nodes' feature rows: a gather of the source rows (a negative source
    index has 100000 added) scattered by addition into a zero matrix. -/
def aggregate (s d : (⟨S640000, .i32⟩ : BufTy).Contents (Elt F)) (x : (⟨S100000x128, .f32⟩ : BufTy).Contents (Elt F)) :
    (⟨S100000x128, .f32⟩ : BufTy).Contents (Elt F) :=
  Host.scatterAdd scatter_S100000x128_S640000x1_S640000x128_1_0_0_1
    (broadcastInDim S100000x128 ![] bcast_S_S100000x128 (constant (F := F) S_ .f32 0x00000000#32))
    (broadcastInDim S640000x1 ![0] bcast_S640000_S640000x1_0 d)
    (Host.gather gather_S100000x128_S640000x1_S640000x128_1_0_n_n_0_1_1128 x
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 100000#32))) s)))

/-- One layer: the aggregate plus the word 1.0 times the features. -/
def next (s d : (⟨S640000, .i32⟩ : BufTy).Contents (Elt F)) (x : (⟨S100000x128, .f32⟩ : BufTy).Contents (Elt F)) :
    (⟨S100000x128, .f32⟩ : BufTy).Contents (Elt F) :=
  addf (aggregate s d x) (mulf (broadcastInDim S100000x128 ![] bcast_S_S100000x128 (constant (F := F) S_ .f32 0x3F800000#32)) x)

/-- The four feature matrices side by side, times the word 1.0. -/
def network (e : (⟨S2x640000, .i32⟩ : BufTy).Contents (Elt F)) (x : (⟨S100000x128, .f32⟩ : BufTy).Contents (Elt F)) :
    (⟨S100000x512, .f32⟩ : BufTy).Contents (Elt F) :=
  mulf (concatenate S100000x512 1 [⟨S100000x128, x⟩, ⟨S100000x128, next (sourcesOf e) (targetsOf e) x⟩,
      ⟨S100000x128, next (sourcesOf e) (targetsOf e) (next (sourcesOf e) (targetsOf e) x)⟩,
      ⟨S100000x128, next (sourcesOf e) (targetsOf e) (next (sourcesOf e) (targetsOf e) (next (sourcesOf e) (targetsOf e) x))⟩]
      concatenates_S100000x128_S100000x128_S100000x128_S100000x128_S100000x512_d1)
    (broadcastInDim S100000x512 ![] bcast_S_S100000x512 (constant (F := F) S_ .f32 0x3F800000#32))

/-- The tiled layer's entrywise sum is the host spelling of the same sum. -/
theorem combined_eq (a x : (⟨S100000x128, .f32⟩ : BufTy).Contents (Elt F)) :
    combined a x = addf a (mulf (broadcastInDim S100000x128 ![] bcast_S_S100000x128 (constant (F := F) S_ .f32 0x3F800000#32)) x) :=
  funext fun _ => rfl

variable (m : (ℓ : Loc nD τ sig) → Buf (Elt F) ℓ) (ρ : Dev nD → PrngReg)

/-! ## The first stretch: the edge rows and the first aggregate -/

theorem B1_sources (c : Dev nD) : B1 m ρ c (Proc.devRef .tc main_v1) = sourcesOf (m ((c : Thread nD τ).loc main_arg1)) := by
  show StableHlo.after hostOps0 (B0 m ρ c) (Proc.devRef .tc main_v1) = _
  after_results
  rfl

theorem B1_targets (c : Dev nD) : B1 m ρ c (Proc.devRef .tc main_v3) = targetsOf (m ((c : Thread nD τ).loc main_arg1)) := by
  show StableHlo.after hostOps0 (B0 m ρ c) (Proc.devRef .tc main_v3) = _
  after_results
  rfl

theorem B1_aggregate (c : Dev nD) : B1 m ρ c (Proc.devRef .tc main_v13)
    = aggregate (sourcesOf (m ((c : Thread nD τ).loc main_arg1))) (targetsOf (m ((c : Thread nD τ).loc main_arg1))) (m ((c : Thread nD τ).loc main_arg0)) := by
  show StableHlo.after hostOps0 (B0 m ρ c) (Proc.devRef .tc main_v13) = _
  after_results
  rfl

theorem B1_features (c : Dev nD) : B1 m ρ c (Proc.devRef .tc main_arg0) = m ((c : Thread nD τ).loc main_arg0) :=
  B1_keep m ρ c main_arg0 (by decide)

/-! ## The edge rows are carried to every later stretch -/

theorem B2_sources (c : Dev nD) : B2 m ρ c (Proc.devRef .tc main_v1) = sourcesOf (m ((c : Thread nD τ).loc main_arg1)) :=
  (B2_keep m ρ c main_v1 (by decide)).trans (B1_sources m ρ c)
theorem B2_targets (c : Dev nD) : B2 m ρ c (Proc.devRef .tc main_v3) = targetsOf (m ((c : Thread nD τ).loc main_arg1)) :=
  (B2_keep m ρ c main_v3 (by decide)).trans (B1_targets m ρ c)
theorem B4_sources (c : Dev nD) : B4 m ρ c (Proc.devRef .tc main_v1) = sourcesOf (m ((c : Thread nD τ).loc main_arg1)) :=
  (B4_keep m ρ c main_v1 (by decide)).trans ((B3_keep m ρ c main_v1 (by decide)).trans (B2_sources m ρ c))
theorem B4_targets (c : Dev nD) : B4 m ρ c (Proc.devRef .tc main_v3) = targetsOf (m ((c : Thread nD τ).loc main_arg1)) :=
  (B4_keep m ρ c main_v3 (by decide)).trans ((B3_keep m ρ c main_v3 (by decide)).trans (B2_targets m ρ c))

/-! ## The three layers' results -/

/-- The features after one layer. -/
abbrev x1 (c : Dev nD) : (⟨S100000x128, .f32⟩ : BufTy).Contents (Elt F) :=
  next (sourcesOf (m ((c : Thread nD τ).loc main_arg1))) (targetsOf (m ((c : Thread nD τ).loc main_arg1))) (m ((c : Thread nD τ).loc main_arg0))
/-- after two, -/
abbrev x2 (c : Dev nD) : (⟨S100000x128, .f32⟩ : BufTy).Contents (Elt F) :=
  next (sourcesOf (m ((c : Thread nD τ).loc main_arg1))) (targetsOf (m ((c : Thread nD τ).loc main_arg1))) (x1 m c)
/-- after three. -/
abbrev x3 (c : Dev nD) : (⟨S100000x128, .f32⟩ : BufTy).Contents (Elt F) :=
  next (sourcesOf (m ((c : Thread nD τ).loc main_arg1))) (targetsOf (m ((c : Thread nD τ).loc main_arg1))) (x2 m c)

theorem B2_layer (c : Dev nD) : B2 m ρ c (Proc.devRef .tc main_v14) = x1 m c := by
  refine (B2_arr m ρ c 2).trans ?_
  rw [result_matrix0 (R1 m ρ) c, combined_eq]
  show addf (B1 m ρ c (Proc.devRef .tc main_v13)) (mulf _ (B1 m ρ c (Proc.devRef .tc main_arg0))) = _
  rw [B1_aggregate, B1_features]
  rfl

theorem B3_aggregate (c : Dev nD) : B3 m ρ c (Proc.devRef .tc main_v24)
    = aggregate (B2 m ρ c (Proc.devRef .tc main_v1)) (B2 m ρ c (Proc.devRef .tc main_v3)) (B2 m ρ c (Proc.devRef .tc main_v14)) := by
  show StableHlo.after hostOps1 (B2 m ρ c) (Proc.devRef .tc main_v24) = _
  after_results
  rfl

theorem B4_layer (c : Dev nD) : B4 m ρ c (Proc.devRef .tc main_v25) = x2 m c := by
  refine (B4_arr m ρ c 2).trans ?_
  rw [result_matrix1 (R3 m ρ) c, combined_eq]
  show addf (B3 m ρ c (Proc.devRef .tc main_v24)) (mulf _ (B3 m ρ c (Proc.devRef .tc main_v14))) = _
  rw [B3_aggregate, B3_keep m ρ c main_v14 (by decide), B2_sources, B2_targets, B2_layer]
  rfl

/-- Layer 1 reads the first layer's result through an input window and leaves it as it found it. -/
theorem B4_first (c : Dev nD) : B4 m ρ c (Proc.devRef .tc main_v14) = x1 m c :=
  (B4_arr m ρ c 1).trans (((layer1 (R3 m ρ) c).arrAt_in 1 rfl _).trans ((layer_arrays1 (R3 m ρ) c 1).trans
    ((B3_keep m ρ c main_v14 (by decide)).trans (B2_layer m ρ c))))

theorem B5_aggregate (c : Dev nD) : B5 m ρ c (Proc.devRef .tc main_v35)
    = aggregate (B4 m ρ c (Proc.devRef .tc main_v1)) (B4 m ρ c (Proc.devRef .tc main_v3)) (B4 m ρ c (Proc.devRef .tc main_v25)) := by
  show StableHlo.after hostOps2 (B4 m ρ c) (Proc.devRef .tc main_v35) = _
  after_results
  rfl

theorem B6_layer (c : Dev nD) : B6 m ρ c (Proc.devRef .tc main_v36) = x3 m c := by
  refine (B6_arr m ρ c 2).trans ?_
  rw [result_matrix2 (R5 m ρ) c, combined_eq]
  show addf (B5 m ρ c (Proc.devRef .tc main_v35)) (mulf _ (B5 m ρ c (Proc.devRef .tc main_v25))) = _
  rw [B5_aggregate, B5_keep m ρ c main_v25 (by decide), B4_sources, B4_targets, B4_layer]
  rfl

/-- Layer 2 reads the second layer's result through an input window and leaves it as it found it. -/
theorem B6_second (c : Dev nD) : B6 m ρ c (Proc.devRef .tc main_v25) = x2 m c :=
  (B6_arr m ρ c 1).trans (((layer2 (R5 m ρ) c).arrAt_in 1 rfl _).trans ((layer_arrays2 (R5 m ρ) c 1).trans
    ((B5_keep m ρ c main_v25 (by decide)).trans (B4_layer m ρ c))))

theorem B6_first (c : Dev nD) : B6 m ρ c (Proc.devRef .tc main_v14) = x1 m c :=
  (B6_keep m ρ c main_v14 (by decide)).trans ((B5_keep m ρ c main_v14 (by decide)).trans (B4_first m ρ c))

theorem B6_features (c : Dev nD) : B6 m ρ c (Proc.devRef .tc main_arg0) = m ((c : Thread nD τ).loc main_arg0) :=
  (B6_keep m ρ c main_arg0 (by decide)).trans ((B5_keep m ρ c main_arg0 (by decide)).trans ((B4_keep m ρ c main_arg0 (by decide)).trans
    ((B3_keep m ρ c main_arg0 (by decide)).trans ((B2_features m ρ c).trans (B1_features m ρ c)))))

/-! ## The last stretch: the result -/

theorem B7_result (c : Dev nD) : B7 m ρ c (Proc.devRef .tc main_v39) = network (m ((c : Thread nD τ).loc main_arg1)) (m ((c : Thread nD τ).loc main_arg0)) := by
  show StableHlo.after hostOps3 (B6 m ρ c) (Proc.devRef .tc main_v39) = _
  after_results
  show mulf (concatenate S100000x512 1 [⟨S100000x128, B6 m ρ c (Proc.devRef .tc main_arg0)⟩, ⟨S100000x128, B6 m ρ c (Proc.devRef .tc main_v14)⟩,
      ⟨S100000x128, B6 m ρ c (Proc.devRef .tc main_v25)⟩, ⟨S100000x128, B6 m ρ c (Proc.devRef .tc main_v36)⟩]
      concatenates_S100000x128_S100000x128_S100000x128_S100000x128_S100000x512_d1)
    (broadcastInDim S100000x512 ![] bcast_S_S100000x512 (constant (F := F) S_ .f32 0x3F800000#32)) = _
  rw [B6_features, B6_first, B6_second, B6_layer]
  rfl

/-- THE VALUE RUN: the program runs to the end, its result buffer holds the network's function of the two
    arguments, and the arguments end as launched. -/
theorem run_value : θ_run defs (onTc (τ := τ) (main (F := F))) ⟨m, fun _ => 0, ρ⟩ (fun r => ∀ c : Dev nD,
      r.2.mem ((c.tc : Thread nD τ).loc main_v39) = network (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (held_ref main_v39 (by decide))).trans (B7_result m ρ c),
     (h c _ (held_ref main_arg0 (by decide))).trans (B7_main_arg0 m ρ c),
     (h c _ (held_ref main_arg1 (by decide))).trans (B7_main_arg1 m ρ c)⟩) (run_to_end m ρ)

end Cert.KernelIdeal.Combine

end
-- ==== Proof.Same.lean ====
/-
  The reference program computes the same network function.

  The reference does, on the host, exactly the operations of the tiled program: per layer the gather of the source
  rows, the scatter-add into a zero matrix, the product with the word 1.0 and the sum; then the concatenation of the
  four feature matrices and the product with the word 1.0. Its result term, with every intermediate inlined, is
  therefore the network function of its two arguments, operation for operation; no arithmetic law and no
  finiteness of the inputs is needed.
-/
import proofs.«168880_j5239860101132_1_alg».proof.Proof.Gen.ReferenceIdeal.Run
import proofs.«168880_j5239860101132_1_alg».proof.Proof.Ideal.Network

set_option maxRecDepth 16384

noncomputable section

namespace Cert.Proof.Same

open Idealize.ShloMosaic Idealize.ShloMosaic.TcCoe Idealize.SL.Sem

variable {F : FTy → Type} [FloatOps F]

/-- The reference's result term is the network function of the edge list and the feature matrix. -/
theorem reference_is_network (m' : (ℓ : Loc Cert.ReferenceIdeal.nD Cert.ReferenceIdeal.τ Cert.ReferenceIdeal.sig) → Buf (Elt F) ℓ) (c : Dev Cert.ReferenceIdeal.nD) :
    Cert.ReferenceIdeal.Value.res_main_v45 (F := F) m' c
      = Cert.KernelIdeal.Combine.network (F := F)
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg0)) := by
  unfold Cert.ReferenceIdeal.Value.res_main_v45 Cert.KernelIdeal.Combine.network Cert.KernelIdeal.Combine.next
    Cert.KernelIdeal.Combine.aggregate Cert.KernelIdeal.Combine.sourcesOf Cert.KernelIdeal.Combine.targetsOf
  rfl

end Cert.Proof.Same

end
-- ==== Proof.lean ====
/-
  A three-layer graph network without learned weights: each layer replaces the node features `x` by
  `sum of the neighbours' rows + 1 · x`, and the result is the four feature matrices side by side.

  The kernel program computes the neighbour sums on the host (a gather and a scatter-add) and the sum
  `aggr + 1 · x` in a tiled kernel, twenty row blocks of 5000 rows per layer; the reference computes everything on
  the host. Both are the same function of the edge list and the feature matrix, operation for operation:
  the tiled layer's result matrix is the entrywise sum of its two input matrices (each grid point writes its own
  row block of that sum, and the blocks tile the rows), and everything else is literally the same host operation.
  So the two results agree on all inputs, finite or not.

  The three frame claims come from the runs themselves: the tiled program's run through its four host
  stretches and three layers ends with every buffer at a known fold of the launch memory, in which the two
  arguments are never written; the reference's run is a line of host operations.
-/
import proofs.«168880_j5239860101132_1_alg».proof.Defs
import proofs.«168880_j5239860101132_1_alg».proof.Proof.Gen.Kernel
import proofs.«168880_j5239860101132_1_alg».proof.Proof.Gen.KernelIdeal
import proofs.«168880_j5239860101132_1_alg».proof.Proof.Gen.ReferenceIdeal
import proofs.«168880_j5239860101132_1_alg».proof.Proof.Gen.Pre_finite_inputs
import proofs.«168880_j5239860101132_1_alg».proof.Proof.Gen.ReferenceIdeal.Run
import proofs.«168880_j5239860101132_1_alg».proof.Proof.Words.Whole
import proofs.«168880_j5239860101132_1_alg».proof.Proof.Ideal.Network
import proofs.«168880_j5239860101132_1_alg».proof.Proof.Same
import Idealize.ShloMosaic.Adequacy
import Idealize.ShloMosaic.Init

noncomputable section

namespace Cert.Proof

open Idealize.ShloMosaic Idealize.ShloMosaic.TcCoe Idealize.SL.Sem

/-- The word-level program runs to the end and leaves its two arguments as launched. -/
theorem frame_words : Cert.frame_Kernel (hKernel := Cert.Kernel.Gen.facts) (hPre_finite_inputs := Cert.Pre_finite_inputs.Gen.facts) :=
  fun m ρ _ => Cert.Kernel.Combine.args_kept (F := Bits) m ρ

/-- So does its reading over the extended reals. -/
theorem frame_ideal : Cert.frame_KernelIdeal (hKernelIdeal := Cert.KernelIdeal.Gen.facts) (hPre_finite_inputs := Cert.Pre_finite_inputs.Gen.facts) :=
  fun m ρ _ => Cert.KernelIdeal.Combine.args_kept (F := Ideal) m ρ

/-- The reference is a line of host operations: it runs to the end and writes neither argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals both programs end with the network function of the edge list and the feature
    matrix in their result buffers; from memories that agree on the arguments these are the same array. -/
theorem same_result : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Combine.network (F := Ideal)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0)),
    Cert.KernelIdeal.Combine.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.Proof.Same.reference_is_network, (hagree c).1, (hagree c).2]

theorem claim : Cert.Claim := ⟨Cert.Kernel.Gen.facts, Cert.KernelIdeal.Gen.facts, Cert.ReferenceIdeal.Gen.facts, Cert.Pre_finite_inputs.Gen.facts,
  frame_words, frame_ideal, frame_reference, trivial, same_result⟩

end Cert.Proof

end
